-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v218)) (v1 : (c : Dev Cert.KernelIdeal.nD) → Buf (Elt Ideal) ((c.tc : Thread Cert.KernelIdeal.nD Cert.KernelIdeal.τ).loc Cert.KernelIdeal.main_v209)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v218) = v0 c
          ∧ r.2.mem ((c.tc : Thread Cert.KernelIdeal.nD Cert.KernelIdeal.τ).loc Cert.KernelIdeal.main_v209) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v212) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1023 : Shape := ⟨2, ![2048, 1023]⟩
abbrev S1023 : Shape := ⟨1, ![1023]⟩
abbrev S1024x512 : Shape := ⟨2, ![1024, 512]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1023 : S_.BroadcastsInDim S2048x1023 (![] : Fin 0 → Fin S2048x1023.rank)
  reducesTo_S2048x1023_S_d0_1 : S2048x1023.ReducesTo [0, 1] S_
  bcast_S_S1023 : S_.BroadcastsInDim S1023 (![] : Fin 0 → Fin S1023.rank)
  reducesTo_S1023_S_d0 : S1023.ReducesTo [0] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  main_v18

def fn {F : FTy → Type} [FloatOps F] (main_arg0 : FVec F S16384x2048 .f32) (main_arg1 : FVec F S2048x1023 .f32) (main_arg2 : FVec F S1023 .f32) (main_arg3 : FVec F S1024x512 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1023 .f32 := Host.absf main_arg1
  let main_cst_0 : FVec F S_ .f32 := constant S_ .f32 0x7F800000#32
  let main_v5 : FVec F S2048x1023 .f32 := broadcastInDim S2048x1023 ![] bcast_S_S2048x1023 main_cst_0
  let main_v6 : IVec S2048x1023 1 := cmpf .olt main_v4 main_v5
  let main_c_1 : IVec S_ 1 := constantI S_ 1 1#1
  let main_v7 : IVec S_ 1 := (fun x v => Host.reduce IntOp.andi x v reducesTo_S2048x1023_S_d0_1 h_S_) main_v6 main_c_1
  let main_v8 : IVec S_ 1 := andi main_v3 main_v7
  let main_v9 : FVec F S1023 .f32 := Host.absf main_arg2
  let main_cst_2 : FVec F S_ .f32 := constant S_ .f32 0x7F800000#32
  let main_v10 : FVec F S1023 .f32 := broadcastInDim S1023 ![] bcast_S_S1023 main_cst_2
  let main_v11 : IVec S1023 1 := cmpf .olt main_v9 main_v10
  let main_c_3 : IVec S_ 1 := constantI S_ 1 1#1
  let main_v12 : IVec S_ 1 := (fun x v => Host.reduce IntOp.andi x v reducesTo_S1023_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_v13 main_v16
-- ==== Kernel.lean ====
abbrev S16384x2048 : Shape := ⟨2, ![16384, 2048]⟩
abbrev S2048x1023 : Shape := ⟨2, ![2048, 1023]⟩
abbrev S1023 : Shape := ⟨1, ![1023]⟩
abbrev S1024x512 : Shape := ⟨2, ![1024, 512]⟩
abbrev S_ : Shape := ⟨0, ![]⟩
abbrev S2048x1024 : Shape := ⟨2, ![2048, 1024]⟩
abbrev S1024 : Shape := ⟨1, ![1024]⟩
abbrev S1x1024 : Shape := ⟨2, ![1, 1024]⟩
abbrev S16384x1024 : Shape := ⟨2, ![16384, 1024]⟩
abbrev S1024x2048 : Shape := ⟨2, ![1024, 2048]⟩
abbrev S1024x1024 : Shape := ⟨2, ![1024, 1024]⟩
abbrev S16384x1023 : Shape := ⟨2, ![16384, 1023]⟩
abbrev S16384x1 : Shape := ⟨2, ![16384, 1]⟩
abbrev S1 : Shape := ⟨1, ![1]⟩
abbrev S16384x1x1 : Shape := ⟨3, ![16384, 1, 1]⟩
abbrev S16384x1x2 : Shape := ⟨3, ![16384, 1, 2]⟩
abbrev S16384x2 : Shape := ⟨2, ![16384, 2]⟩
abbrev S2 : Shape := ⟨1, ![2]⟩
abbrev S16384x2x1 : Shape := ⟨3, ![16384, 2, 1]⟩
abbrev S16384x2x2 : Shape := ⟨3, ![16384, 2, 2]⟩
abbrev S16384x4 : Shape := ⟨2, ![16384, 4]⟩
abbrev S4 : Shape := ⟨1, ![4]⟩
abbrev S16384x4x1 : Shape := ⟨3, ![16384, 4, 1]⟩
abbrev S16384x4x2 : Shape := ⟨3, ![16384, 4, 2]⟩
abbrev S16384x8 : Shape := ⟨2, ![16384, 8]⟩
abbrev S8 : Shape := ⟨1, ![8]⟩
abbrev S16384x8x1 : Shape := ⟨3, ![16384, 8, 1]⟩
abbrev S16384x8x2 : Shape := ⟨3, ![16384, 8, 2]⟩
abbrev S16384x16 : Shape := ⟨2, ![16384, 16]⟩
abbrev S16 : Shape := ⟨1, ![16]⟩
abbrev S16384x16x1 : Shape := ⟨3, ![16384, 16, 1]⟩
abbrev S16384x16x2 : Shape := ⟨3, ![16384, 16, 2]⟩
abbrev S16384x32 : Shape := ⟨2, ![16384, 32]⟩
abbrev S32 : Shape := ⟨1, ![32]⟩
abbrev S16384x32x1 : Shape := ⟨3, ![16384, 32, 1]⟩
abbrev S16384x32x2 : Shape := ⟨3, ![16384, 32, 2]⟩
abbrev S16384x64 : Shape := ⟨2, ![16384, 64]⟩
abbrev S64 : Shape := ⟨1, ![64]⟩
abbrev S16384x64x1 : Shape := ⟨3, ![16384, 64, 1]⟩
abbrev S16384x64x2 : Shape := ⟨3, ![16384, 64, 2]⟩
abbrev S16384x128 : Shape := ⟨2, ![16384, 128]⟩
abbrev S128 : Shape := ⟨1, ![128]⟩
abbrev S16384x128x1 : Shape := ⟨3, ![16384, 128, 1]⟩
abbrev S16384x128x2 : Shape := ⟨3, ![16384, 128, 2]⟩
abbrev S16384x256 : Shape := ⟨2, ![16384, 256]⟩
abbrev S256 : Shape := ⟨1, ![256]⟩
abbrev S16384x256x1 : Shape := ⟨3, ![16384, 256, 1]⟩
abbrev S16384x256x2 : Shape := ⟨3, ![16384, 256, 2]⟩
abbrev S16384x512 : Shape := ⟨2, ![16384, 512]⟩
abbrev S512 : Shape := ⟨1, ![512]⟩
abbrev S16384x512x1 : Shape := ⟨3, ![16384, 512, 1]⟩
abbrev S16384x512x2 : Shape := ⟨3, ![16384, 512, 2]⟩

abbrev nBuf : Space → Nat
  | .hbm => 299
  | .vmem => 11
  | .smem => 0
  | _ => 0

abbrev hbmTy0_0 (i : Nat) : BufTy := match i % 128 with
  | 0 => ⟨S16384x2048, .f32⟩
  | 1 => ⟨S2048x1023, .f32⟩
  | 2 => ⟨S1023, .f32⟩
  | 3 => ⟨S1024x512, .f32⟩
  | 4 => ⟨S_, .i32⟩
  | 5 => ⟨S_, .f32⟩
  | 6 => ⟨S2048x1024, .f32⟩
  | 7 => ⟨S_, .i32⟩
  | 8 => ⟨S_, .f32⟩
  | 9 => ⟨S1024, .f32⟩
  | 10 => ⟨S1x1024, .f32⟩
  | 11 => ⟨S2048x1024, .bf16⟩
  | 12 => ⟨S1024x512, .bf16⟩
  | 13 => ⟨S16384x1024, .f32⟩
  | 14 => ⟨S16384x1023, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S16384x1, .f32⟩
  | 26 => ⟨S_, .f32⟩
  | 27 => ⟨S1, .f32⟩
  | 28 => ⟨S_, .f32⟩
  | 29 => ⟨S1, .f32⟩
  | 30 => ⟨S1, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S16384x1, .f32⟩
  | 38 => ⟨S_, .f32⟩
  | 39 => ⟨S16384x1, .f32⟩
  | 40 => ⟨S16384x1, .f32⟩
  | 41 => ⟨S16384x1, .f32⟩
  | 42 => ⟨S16384x1x1, .f32⟩
  | 43 => ⟨S16384x1x1, .f32⟩
  | 44 => ⟨S16384x1x2, .f32⟩
  | 45 => ⟨S16384x2, .f32⟩
  | 46 => ⟨S16384x2, .f32⟩
  | 47 => ⟨S_, .f32⟩
  | 48 => ⟨S16384x2, .f32⟩
  | 49 => ⟨S16384x2, .f32⟩
  | 50 => ⟨S16384x2, .f32⟩
  | 51 => ⟨S_, .f32⟩
  | 52 => ⟨S16384x2, .f32⟩
  | 53 => ⟨S16384x2, .f32⟩
  | 54 => ⟨S16384x2, .f32⟩
  | 55 => ⟨S_, .f32⟩
  | 56 => ⟨S2, .f32⟩
  | 57 => ⟨S_, .f32⟩
  | 58 => ⟨S2, .f32⟩
  | 59 => ⟨S2, .f32⟩
  | 60 => ⟨S_, .f32⟩
  | 61 => ⟨S_, .f32⟩
  | 62 => ⟨S_, .f32⟩
  | 63 => ⟨S_, .f32⟩
  | 64 => ⟨S_, .f32⟩
  | 65 => ⟨S16384x2, .f32⟩
  | 66 => ⟨S_, .f32⟩
  | 67 => ⟨S16384x2, .f32⟩
  | 68 => ⟨S16384x2, .f32⟩
  | 69 => ⟨S16384x2, .f32⟩
  | 70 => ⟨S16384x2x1, .f32⟩
  | 71 => ⟨S16384x2x1, .f32⟩
  | 72 => ⟨S16384x2x2, .f32⟩
  | 73 => ⟨S16384x4, .f32⟩
  | 74 => ⟨S16384x4, .f32⟩
  | 75 => ⟨S_, .f32⟩
  | 76 => ⟨S16384x4, .f32⟩
  | 77 => ⟨S16384x4, .f32⟩
  | 78 => ⟨S16384x4, .f32⟩
  | 79 => ⟨S_, .f32⟩
  | 80 => ⟨S16384x4, .f32⟩
  | 81 => ⟨S16384x4, .f32⟩
  | 82 => ⟨S16384x4, .f32⟩
  | 83 => ⟨S_, .f32⟩
  | 84 => ⟨S4, .f32⟩
  | 85 => ⟨S_, .f32⟩
  | 86 => ⟨S4, .f32⟩
  | 87 => ⟨S4, .f32⟩
  | 88 => ⟨S_, .f32⟩
  | 89 => ⟨S_, .f32⟩
  | 90 => ⟨S_, .f32⟩
  | 91 => ⟨S_, .f32⟩
  | 92 => ⟨S_, .f32⟩
  | 93 => ⟨S16384x4, .f32⟩
  | 94 => ⟨S_, .f32⟩
  | 95 => ⟨S16384x4, .f32⟩
  | 96 => ⟨S16384x4, .f32⟩
  | 97 => ⟨S16384x4, .f32⟩
  | 98 => ⟨S16384x4x1, .f32⟩
  | 99 => ⟨S16384x4x1, .f32⟩
  | 100 => ⟨S16384x4x2, .f32⟩
  | 101 => ⟨S16384x8, .f32⟩
  | 102 => ⟨S16384x8, .f32⟩
  | 103 => ⟨S_, .f32⟩
  | 104 => ⟨S16384x8, .f32⟩
  | 105 => ⟨S16384x8, .f32⟩
  | 106 => ⟨S16384x8, .f32⟩
  | 107 => ⟨S_, .f32⟩
  | 108 => ⟨S16384x8, .f32⟩
  | 109 => ⟨S16384x8, .f32⟩
  | 110 => ⟨S16384x8, .f32⟩
  | 111 => ⟨S_, .f32⟩
  | 112 => ⟨S8, .f32⟩
  | 113 => ⟨S_, .f32⟩
  | 114 => ⟨S8, .f32⟩
  | 115 => ⟨S8, .f32⟩
  | 116 => ⟨S_, .f32⟩
  | 117 => ⟨S_, .f32⟩
  | 118 => ⟨S_, .f32⟩
  | 119 => ⟨S_, .f32⟩
  | 120 => ⟨S_, .f32⟩
  | 121 => ⟨S16384x8, .f32⟩
  | 122 => ⟨S_, .f32⟩
  | 123 => ⟨S16384x8, .f32⟩
  | 124 => ⟨S16384x8, .f32⟩
  | 125 => ⟨S16384x8, .f32⟩
  | 126 => ⟨S16384x8x1, .f32⟩
  | 127 => ⟨S16384x8x1, .f32⟩
  | _ => ⟨S16384x2048, .f32⟩

abbrev hbmTy0_1 (i : Nat) : BufTy := match i % 128 with
  | 0 => ⟨S16384x8x2, .f32⟩
  | 1 => ⟨S16384x16, .f32⟩
  | 2 => ⟨S16384x16, .f32⟩
  | 3 => ⟨S_, .f32⟩
  | 4 => ⟨S16384x16, .f32⟩
  | 5 => ⟨S16384x16, .f32⟩
  | 6 => ⟨S16384x16, .f32⟩
  | 7 => ⟨S_, .f32⟩
  | 8 => ⟨S16384x16, .f32⟩
  | 9 => ⟨S16384x16, .f32⟩
  | 10 => ⟨S16384x16, .f32⟩
  | 11 => ⟨S_, .f32⟩
  | 12 => ⟨S16, .f32⟩
  | 13 => ⟨S_, .f32⟩
  | 14 => ⟨S16, .f32⟩
  | 15 => ⟨S16, .f32⟩
  | 16 => ⟨S_, .f32⟩
  | 17 => ⟨S_, .f32⟩
  | 18 => ⟨S_, .f32⟩
  | 19 => ⟨S_, .f32⟩
  | 20 => ⟨S_, .f32⟩
  | 21 => ⟨S16384x16, .f32⟩
  | 22 => ⟨S_, .f32⟩
  | 23 => ⟨S16384x16, .f32⟩
  | 24 => ⟨S16384x16, .f32⟩
  | 25 => ⟨S16384x16, .f32⟩
  | 26 => ⟨S16384x16x1, .f32⟩
  | 27 => ⟨S16384x16x1, .f32⟩
  | 28 => ⟨S16384x16x2, .f32⟩
  | 29 => ⟨S16384x32, .f32⟩
  | 30 => ⟨S16384x32, .f32⟩
  | 31 => ⟨S_, .f32⟩
  | 32 => ⟨S16384x32, .f32⟩
  | 33 => ⟨S16384x32, .f32⟩
  | 34 => ⟨S16384x32, .f32⟩
  | 35 => ⟨S_, .f32⟩
  | 36 => ⟨S16384x32, .f32⟩
  | 37 => ⟨S16384x32, .f32⟩
  | 38 => ⟨S16384x32, .f32⟩
  | 39 => ⟨S_, .f32⟩
  | 40 => ⟨S32, .f32⟩
  | 41 => ⟨S_, .f32⟩
  | 42 => ⟨S32, .f32⟩
  | 43 => ⟨S32, .f32⟩
  | 44 => ⟨S_, .f32⟩
  | 45 => ⟨S_, .f32⟩
  | 46 => ⟨S_, .f32⟩
  | 47 => ⟨S_, .f32⟩
  | 48 => ⟨S_, .f32⟩
  | 49 => ⟨S16384x32, .f32⟩
  | 50 => ⟨S_, .f32⟩
  | 51 => ⟨S16384x32, .f32⟩
  | 52 => ⟨S16384x32, .f32⟩
  | 53 => ⟨S16384x32, .f32⟩
  | 54 => ⟨S16384x32x1, .f32⟩
  | 55 => ⟨S16384x32x1, .f32⟩
  | 56 => ⟨S16384x32x2, .f32⟩
  | 57 => ⟨S16384x64, .f32⟩
  | 58 => ⟨S16384x64, .f32⟩
  | 59 => ⟨S_, .f32⟩
  | 60 => ⟨S16384x64, .f32⟩
  | 61 => ⟨S16384x64, .f32⟩
  | 62 => ⟨S16384x64, .f32⟩
  | 63 => ⟨S_, .f32⟩
  | 64 => ⟨S16384x64, .f32⟩
  | 65 => ⟨S16384x64, .f32⟩
  | 66 => ⟨S16384x64, .f32⟩
  | 67 => ⟨S_, .f32⟩
  | 68 => ⟨S64, .f32⟩
  | 69 => ⟨S_, .f32⟩
  | 70 => ⟨S64, .f32⟩
  | 71 => ⟨S64, .f32⟩
  | 72 => ⟨S_, .f32⟩
  | 73 => ⟨S_, .f32⟩
  | 74 => ⟨S_, .f32⟩
  | 75 => ⟨S_, .f32⟩
  | 76 => ⟨S_, .f32⟩
  | 77 => ⟨S16384x64, .f32⟩
  | 78 => ⟨S_, .f32⟩
  | 79 => ⟨S16384x64, .f32⟩
  | 80 => ⟨S16384x64, .f32⟩
  | 81 => ⟨S16384x64, .f32⟩
  | 82 => ⟨S16384x64x1, .f32⟩
  | 83 => ⟨S16384x64x1, .f32⟩
  | 84 => ⟨S16384x64x2, .f32⟩
  | 85 => ⟨S16384x128, .f32⟩
  | 86 => ⟨S16384x128, .f32⟩
  | 87 => ⟨S_, .f32⟩
  | 88 => ⟨S16384x128, .f32⟩
  | 89 => ⟨S16384x128, .f32⟩
  | 90 => ⟨S16384x128, .f32⟩
  | 91 => ⟨S_, .f32⟩
  | 92 => ⟨S16384x128, .f32⟩
  | 93 => ⟨S16384x128, .f32⟩
  | 94 => ⟨S16384x128, .f32⟩
  | 95 => ⟨S_, .f32⟩
  | 96 => ⟨S128, .f32⟩
  | 97 => ⟨S_, .f32⟩
  | 98 => ⟨S128, .f32⟩
  | 99 => ⟨S128, .f32⟩
  | 100 => ⟨S_, .f32⟩
  | 101 => ⟨S_, .f32⟩
  | 102 => ⟨S_, .f32⟩
  | 103 => ⟨S_, .f32⟩
  | 104 => ⟨S_, .f32⟩
  | 105 => ⟨S16384x128, .f32⟩
  | 106 => ⟨S_, .f32⟩
  | 107 => ⟨S16384x128, .f32⟩
  | 108 => ⟨S16384x128, .f32⟩
  | 109 => ⟨S16384x128, .f32⟩
  | 110 => ⟨S16384x128x1, .f32⟩
  | 111 => ⟨S16384x128x1, .f32⟩
  | 112 => ⟨S16384x128x2, .f32⟩
  | 113 => ⟨S16384x256, .f32⟩
  | 114 => ⟨S16384x256, .f32⟩
  | 115 => ⟨S_, .f32⟩
  | 116 => ⟨S16384x256, .f32⟩
  | 117 => ⟨S16384x256, .f32⟩
  | 118 => ⟨S16384x256, .f32⟩
  | 119 => ⟨S_, .f32⟩
  | 120 => ⟨S16384x256, .f32⟩
  | 121 => ⟨S16384x256, .f32⟩
  | 122 => ⟨S16384x256, .f32⟩
  | 123 => ⟨S_, .f32⟩
  | 124 => ⟨S256, .f32⟩
  | 125 => ⟨S_, .f32⟩
  | 126 => ⟨S256, .f32⟩
  | 127 => ⟨S256, .f32⟩
  | _ => ⟨S16384x2048, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S16384x256, .f32⟩
  | 6 => ⟨S_, .f32⟩
  | 7 => ⟨S16384x256, .f32⟩
  | 8 => ⟨S16384x256, .f32⟩
  | 9 => ⟨S16384x256, .f32⟩
  | 10 => ⟨S16384x256x1, .f32⟩
  | 11 => ⟨S16384x256x1, .f32⟩
  | 12 => ⟨S16384x256x2, .f32⟩
  | 13 => ⟨S16384x512, .f32⟩
  | 14 => ⟨S16384x512, .f32⟩
  | 15 => ⟨S_, .f32⟩
  | 16 => ⟨S16384x512, .f32⟩
  | 17 => ⟨S16384x512, .f32⟩
  | 18 => ⟨S16384x512, .f32⟩
  | 19 => ⟨S_, .f32⟩
  | 20 => ⟨S16384x512, .f32⟩
  | 21 => ⟨S16384x512, .f32⟩
  | 22 => ⟨S16384x512, .f32⟩
  | 23 => ⟨S_, .f32⟩
  | 24 => ⟨S512, .f32⟩
  | 25 => ⟨S_, .f32⟩
  | 26 => ⟨S512, .f32⟩
  | 27 => ⟨S512, .f32⟩
  | 28 => ⟨S_, .f32⟩
  | 29 => ⟨S_, .f32⟩
  | 30 => ⟨S_, .f32⟩
  | 31 => ⟨S_, .f32⟩
  | 32 => ⟨S_, .f32⟩
  | 33 => ⟨S16384x512, .f32⟩
  | 34 => ⟨S_, .f32⟩
  | 35 => ⟨S16384x512, .f32⟩
  | 36 => ⟨S16384x512, .f32⟩
  | 37 => ⟨S16384x512, .f32⟩
  | 38 => ⟨S16384x512x1, .f32⟩
  | 39 => ⟨S16384x512x1, .f32⟩
  | 40 => ⟨S16384x512x2, .f32⟩
  | 41 => ⟨S16384x1024, .f32⟩
  | 42 => ⟨S16384x512, .f32⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_cst_14 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_15 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_17 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_cst_19 : Ref sig .tc := ⟨.hbm, 85, rfl⟩
abbrev main_v58 : Ref sig .tc := ⟨.hbm, 86, rfl⟩
abbrev main_v59 : Ref sig .tc := ⟨.hbm, 87, rfl⟩
abbrev main_cst_20 : Ref sig .tc := ⟨.hbm, 88, rfl⟩
abbrev main_v60 : Ref sig .tc := ⟨.hbm, 89, rfl⟩
abbrev main_cst_21 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_22 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_23 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_24 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_25 : Ref sig .tc := ⟨.hbm, 111, rfl⟩
abbrev main_v78 : Ref sig .tc := ⟨.hbm, 112, rfl⟩
abbrev main_cst_26 : Ref sig .tc := ⟨.hbm, 113, rfl⟩
abbrev main_v79 : Ref sig .tc := ⟨.hbm, 114, rfl⟩
abbrev main_v80 : Ref sig .tc := ⟨.hbm, 115, rfl⟩
abbrev main_cst_27 : Ref sig .tc := ⟨.hbm, 116, rfl⟩
abbrev main_v81 : Ref sig .tc := ⟨.hbm, 117, rfl⟩
abbrev main_cst_28 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_29 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_30 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_31 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_32 : Ref sig .tc := ⟨.hbm, 139, rfl⟩
abbrev main_v99 : Ref sig .tc := ⟨.hbm, 140, rfl⟩
abbrev main_cst_33 : Ref sig .tc := ⟨.hbm, 141, rfl⟩
abbrev main_v100 : Ref sig .tc := ⟨.hbm, 142, rfl⟩
abbrev main_v101 : Ref sig .tc := ⟨.hbm, 143, rfl⟩
abbrev main_cst_34 : Ref sig .tc := ⟨.hbm, 144, rfl⟩
abbrev main_v102 : Ref sig .tc := ⟨.hbm, 145, rfl⟩
abbrev main_cst_35 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_36 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_37 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_38 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_39 : Ref sig .tc := ⟨.hbm, 167, rfl⟩
abbrev main_v120 : Ref sig .tc := ⟨.hbm, 168, rfl⟩
abbrev main_cst_40 : Ref sig .tc := ⟨.hbm, 169, rfl⟩
abbrev main_v121 : Ref sig .tc := ⟨.hbm, 170, rfl⟩
abbrev main_v122 : Ref sig .tc := ⟨.hbm, 171, rfl⟩
abbrev main_cst_41 : Ref sig .tc := ⟨.hbm, 172, rfl⟩
abbrev main_v123 : Ref sig .tc := ⟨.hbm, 173, rfl⟩
abbrev main_cst_42 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_43 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_44 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_45 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_46 : Ref sig .tc := ⟨.hbm, 195, rfl⟩
abbrev main_v141 : Ref sig .tc := ⟨.hbm, 196, rfl⟩
abbrev main_cst_47 : Ref sig .tc := ⟨.hbm, 197, rfl⟩
abbrev main_v142 : Ref sig .tc := ⟨.hbm, 198, rfl⟩
abbrev main_v143 : Ref sig .tc := ⟨.hbm, 199, rfl⟩
abbrev main_cst_48 : Ref sig .tc := ⟨.hbm, 200, rfl⟩
abbrev main_v144 : Ref sig .tc := ⟨.hbm, 201, rfl⟩
abbrev main_cst_49 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_cst_50 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_cst_51 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_52 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_53 : Ref sig .tc := ⟨.hbm, 223, rfl⟩
abbrev main_v162 : Ref sig .tc := ⟨.hbm, 224, rfl⟩
abbrev main_cst_54 : Ref sig .tc := ⟨.hbm, 225, rfl⟩
abbrev main_v163 : Ref sig .tc := ⟨.hbm, 226, rfl⟩
abbrev main_v164 : Ref sig .tc := ⟨.hbm, 227, rfl⟩
abbrev main_cst_55 : Ref sig .tc := ⟨.hbm, 228, rfl⟩
abbrev main_v165 : Ref sig .tc := ⟨.hbm, 229, rfl⟩
abbrev main_cst_56 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_cst_57 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_58 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_cst_59 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_cst_60 : Ref sig .tc := ⟨.hbm, 251, rfl⟩
abbrev main_v183 : Ref sig .tc := ⟨.hbm, 252, rfl⟩
abbrev main_cst_61 : Ref sig .tc := ⟨.hbm, 253, rfl⟩
abbrev main_v184 : Ref sig .tc := ⟨.hbm, 254, rfl⟩
abbrev main_v185 : Ref sig .tc := ⟨.hbm, 255, rfl⟩
abbrev main_cst_62 : Ref sig .tc := ⟨.hbm, 256, rfl⟩
abbrev main_v186 : Ref sig .tc := ⟨.hbm, 257, rfl⟩
abbrev main_cst_63 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_cst_64 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_cst_65 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_cst_66 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_cst_67 : Ref sig .tc := ⟨.hbm, 279, rfl⟩
abbrev main_v204 : Ref sig .tc := ⟨.hbm, 280, rfl⟩
abbrev main_cst_68 : Ref sig .tc := ⟨.hbm, 281, rfl⟩
abbrev main_v205 : Ref sig .tc := ⟨.hbm, 282, rfl⟩
abbrev main_v206 : Ref sig .tc := ⟨.hbm, 283, rfl⟩
abbrev main_cst_69 : Ref sig .tc := ⟨.hbm, 284, rfl⟩
abbrev main_v207 : Ref sig .tc := ⟨.hbm, 285, rfl⟩
abbrev main_cst_70 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_cst_71 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  pads_S2048x1023_S2048x1024_000_010 : S2048x1023.Pads (![0, 0] : Fin 2 → Nat) ![0, 1] ![0, 0] S2048x1024
  h_S_ : 0 < S_.numel
  pads_S1023_S1024_010 : S1023.Pads (![0] : Fin 1 → Nat) ![1] ![0] S1024
  shapeCasts_S1024_S1x1024 : S1024.ShapeCasts S1x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  slices_S16384x1024_S16384x1023_0_0 : S16384x1024.Slices ![0, 0] S16384x1023
  bcast_S_S16384x1 : S_.BroadcastsInDim S16384x1 (![] : Fin 0 → Fin S16384x1.rank)
  slices_S16384x1023_S16384x1_0_0 : S16384x1023.Slices ![0, 0] S16384x1
  reducesTo_S16384x1_S1_d0 : S16384x1.ReducesTo [0] S1
  bcast_S_S1 : S_.BroadcastsInDim S1 (![] : Fin 0 → Fin S1.rank)
  reducesTo_S1_S_d0 : S1.ReducesTo [0] S_
  bcast_S16384x1_S16384x1x1_0_1 : S16384x1.BroadcastsInDim S16384x1x1 (![0, 1] : Fin 2 → Fin S16384x1x1.rank)
  concatenates_S16384x1x1_S16384x1x1_S16384x1x2_d2 : Shape.Concatenates [S16384x1x1, S16384x1x1] S16384x1x2 2
  shapeCasts_S16384x1x2_S16384x2 : S16384x1x2.ShapeCasts S16384x2
  slices_S16384x1023_S16384x2_0_1 : S16384x1023.Slices ![0, 1] S16384x2
  bcast_S_S16384x2 : S_.BroadcastsInDim S16384x2 (![] : Fin 0 → Fin S16384x2.rank)
  reducesTo_S16384x2_S2_d0 : S16384x2.ReducesTo [0] S2
  bcast_S_S2 : S_.BroadcastsInDim S2 (![] : Fin 0 → Fin S2.rank)
  reducesTo_S2_S_d0 : S2.ReducesTo [0] S_
  bcast_S16384x2_S16384x2x1_0_1 : S16384x2.BroadcastsInDim S16384x2x1 (![0, 1] : Fin 2 → Fin S16384x2x1.rank)
  concatenates_S16384x2x1_S16384x2x1_S16384x2x2_d2 : Shape.Concatenates [S16384x2x1, S16384x2x1] S16384x2x2 2
  shapeCasts_S16384x2x2_S16384x4 : S16384x2x2.ShapeCasts S16384x4
  slices_S16384x1023_S16384x4_0_3 : S16384x1023.Slices ![0, 3] S16384x4
  bcast_S_S16384x4 : S_.BroadcastsInDim S16384x4 (![] : Fin 0 → Fin S16384x4.rank)
  reducesTo_S16384x4_S4_d0 : S16384x4.ReducesTo [0] S4
  bcast_S_S4 : S_.BroadcastsInDim S4 (![] : Fin 0 → Fin S4.rank)
  reducesTo_S4_S_d0 : S4.ReducesTo [0] S_
  bcast_S16384x4_S16384x4x1_0_1 : S16384x4.BroadcastsInDim S16384x4x1 (![0, 1] : Fin 2 → Fin S16384x4x1.rank)
  concatenates_S16384x4x1_S16384x4x1_S16384x4x2_d2 : Shape.Concatenates [S16384x4x1, S16384x4x1] S16384x4x2 2
  shapeCasts_S16384x4x2_S16384x8 : S16384x4x2.ShapeCasts S16384x8
  slices_S16384x1023_S16384x8_0_7 : S16384x1023.Slices ![0, 7] S16384x8
  bcast_S_S16384x8 : S_.BroadcastsInDim S16384x8 (![] : Fin 0 → Fin S16384x8.rank)
  reducesTo_S16384x8_S8_d0 : S16384x8.ReducesTo [0] S8
  bcast_S_S8 : S_.BroadcastsInDim S8 (![] : Fin 0 → Fin S8.rank)
  reducesTo_S8_S_d0 : S8.ReducesTo [0] S_
  bcast_S16384x8_S16384x8x1_0_1 : S16384x8.BroadcastsInDim S16384x8x1 (![0, 1] : Fin 2 → Fin S16384x8x1.rank)
  concatenates_S16384x8x1_S16384x8x1_S16384x8x2_d2 : Shape.Concatenates [S16384x8x1, S16384x8x1] S16384x8x2 2
  shapeCasts_S16384x8x2_S16384x16 : S16384x8x2.ShapeCasts S16384x16
  slices_S16384x1023_S16384x16_0_15 : S16384x1023.Slices ![0, 15] S16384x16
  bcast_S_S16384x16 : S_.BroadcastsInDim S16384x16 (![] : Fin 0 → Fin S16384x16.rank)
  reducesTo_S16384x16_S16_d0 : S16384x16.ReducesTo [0] S16
  bcast_S_S16 : S_.BroadcastsInDim S16 (![] : Fin 0 → Fin S16.rank)
  reducesTo_S16_S_d0 : S16.ReducesTo [0] S_
  bcast_S16384x16_S16384x16x1_0_1 : S16384x16.BroadcastsInDim S16384x16x1 (![0, 1] : Fin 2 → Fin S16384x16x1.rank)
  concatenates_S16384x16x1_S16384x16x1_S16384x16x2_d2 : Shape.Concatenates [S16384x16x1, S16384x16x1] S16384x16x2 2
  shapeCasts_S16384x16x2_S16384x32 : S16384x16x2.ShapeCasts S16384x32
  slices_S16384x1023_S16384x32_0_31 : S16384x1023.Slices ![0, 31] S16384x32
  bcast_S_S16384x32 : S_.BroadcastsInDim S16384x32 (![] : Fin 0 → Fin S16384x32.rank)
  reducesTo_S16384x32_S32_d0 : S16384x32.ReducesTo [0] S32
  bcast_S_S32 : S_.BroadcastsInDim S32 (![] : Fin 0 → Fin S32.rank)
  reducesTo_S32_S_d0 : S32.ReducesTo [0] S_
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  shapeCasts_S16384x32x2_S16384x64 : S16384x32x2.ShapeCasts S16384x64
  slices_S16384x1023_S16384x64_0_63 : S16384x1023.Slices ![0, 63] S16384x64
  bcast_S_S16384x64 : S_.BroadcastsInDim S16384x64 (![] : Fin 0 → Fin S16384x64.rank)
  reducesTo_S16384x64_S64_d0 : S16384x64.ReducesTo [0] S64
  bcast_S_S64 : S_.BroadcastsInDim S64 (![] : Fin 0 → Fin S64.rank)
  reducesTo_S64_S_d0 : S64.ReducesTo [0] S_
  bcast_S16384x64_S16384x64x1_0_1 : S16384x64.BroadcastsInDim S16384x64x1 (![0, 1] : Fin 2 → Fin S16384x64x1.rank)
  concatenates_S16384x64x1_S16384x64x1_S16384x64x2_d2 : Shape.Concatenates [S16384x64x1, S16384x64x1] S16384x64x2 2
  shapeCasts_S16384x64x2_S16384x128 : S16384x64x2.ShapeCasts S16384x128
  slices_S16384x1023_S16384x128_0_127 : S16384x1023.Slices ![0, 127] S16384x128
  bcast_S_S16384x128 : S_.BroadcastsInDim S16384x128 (![] : Fin 0 → Fin S16384x128.rank)
  reducesTo_S16384x128_S128_d0 : S16384x128.ReducesTo [0] S128
  bcast_S_S128 : S_.BroadcastsInDim S128 (![] : Fin 0 → Fin S128.rank)
  reducesTo_S128_S_d0 : S128.ReducesTo [0] S_
  bcast_S16384x128_S16384x128x1_0_1 : S16384x128.BroadcastsInDim S16384x128x1 (![0, 1] : Fin 2 → Fin S16384x128x1.rank)
  concatenates_S16384x128x1_S16384x128x1_S16384x128x2_d2 : Shape.Concatenates [S16384x128x1, S16384x128x1] S16384x128x2 2
  shapeCasts_S16384x128x2_S16384x256 : S16384x128x2.ShapeCasts S16384x256
  slices_S16384x1023_S16384x256_0_255 : S16384x1023.Slices ![0, 255] S16384x256
  bcast_S_S16384x256 : S_.BroadcastsInDim S16384x256 (![] : Fin 0 → Fin S16384x256.rank)
  reducesTo_S16384x256_S256_d0 : S16384x256.ReducesTo [0] S256
  bcast_S_S256 : S_.BroadcastsInDim S256 (![] : Fin 0 → Fin S256.rank)
  reducesTo_S256_S_d0 : S256.ReducesTo [0] S_
  bcast_S16384x256_S16384x256x1_0_1 : S16384x256.BroadcastsInDim S16384x256x1 (![0, 1] : Fin 2 → Fin S16384x256x1.rank)
  concatenates_S16384x256x1_S16384x256x1_S16384x256x2_d2 : Shape.Concatenates [S16384x256x1, S16384x256x1] S16384x256x2 2
  shapeCasts_S16384x256x2_S16384x512 : S16384x256x2.ShapeCasts S16384x512
  slices_S16384x1023_S16384x512_0_511 : S16384x1023.Slices ![0, 511] S16384x512
  bcast_S_S16384x512 : S_.BroadcastsInDim S16384x512 (![] : Fin 0 → Fin S16384x512.rank)
  reducesTo_S16384x512_S512_d0 : S16384x512.ReducesTo [0] S512
  bcast_S_S512 : S_.BroadcastsInDim S512 (![] : Fin 0 → Fin S512.rank)
  reducesTo_S512_S_d0 : S512.ReducesTo [0] S_
  bcast_S16384x512_S16384x512x1_0_1 : S16384x512.BroadcastsInDim S16384x512x1 (![0, 1] : Fin 2 → Fin S16384x512x1.rank)
  concatenates_S16384x512x1_S16384x512x1_S16384x512x2_d2 : Shape.Concatenates [S16384x512x1, S16384x512x1] S16384x512x2 2
  shapeCasts_S16384x512x2_S16384x1024 : S16384x512x2.ShapeCasts S16384x1024
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S1024x2048_S2048x1024_S1024x1024_1_0_0_1_n_n_wf : DotDims.WF S1024x2048 S2048x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S16384x512.size a
  hwx1_2 : ∀ i : grid1.Coords, EltTy.bits .f32 = 32 ∨ (Rect.block (s := S16384x512) S1024x512.size (cc1_transform_2 i) (hinb1_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v217) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v218) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S2048x1023 : Shape := ⟨2, ![2048, 1023]⟩
abbrev S1023 : Shape := ⟨1, ![1023]⟩
abbrev S1024x512 : Shape := ⟨2, ![1024, 512]⟩
abbrev S16384x1023 : Shape := ⟨2, ![16384, 1023]⟩
abbrev S1x1023 : Shape := ⟨2, ![1, 1023]⟩
abbrev S_ : Shape := ⟨0, ![]⟩
abbrev S16384x1 : Shape := ⟨2, ![16384, 1]⟩
abbrev S1 : Shape := ⟨1, ![1]⟩
abbrev S16384x1x1 : Shape := ⟨3, ![16384, 1, 1]⟩
abbrev S16384x1x2 : Shape := ⟨3, ![16384, 1, 2]⟩
abbrev S16384x2 : Shape := ⟨2, ![16384, 2]⟩
abbrev S2 : Shape := ⟨1, ![2]⟩
abbrev S16384x2x1 : Shape := ⟨3, ![16384, 2, 1]⟩
abbrev S16384x2x2 : Shape := ⟨3, ![16384, 2, 2]⟩
abbrev S16384x4 : Shape := ⟨2, ![16384, 4]⟩
abbrev S4 : Shape := ⟨1, ![4]⟩
abbrev S16384x4x1 : Shape := ⟨3, ![16384, 4, 1]⟩
abbrev S16384x4x2 : Shape := ⟨3, ![16384, 4, 2]⟩
abbrev S16384x8 : Shape := ⟨2, ![16384, 8]⟩
abbrev S8 : Shape := ⟨1, ![8]⟩
abbrev S16384x8x1 : Shape := ⟨3, ![16384, 8, 1]⟩
abbrev S16384x8x2 : Shape := ⟨3, ![16384, 8, 2]⟩
abbrev S16384x16 : Shape := ⟨2, ![16384, 16]⟩
abbrev S16 : Shape := ⟨1, ![16]⟩
abbrev S16384x16x1 : Shape := ⟨3, ![16384, 16, 1]⟩
abbrev S16384x16x2 : Shape := ⟨3, ![16384, 16, 2]⟩
abbrev S16384x32 : Shape := ⟨2, ![16384, 32]⟩
abbrev S32 : Shape := ⟨1, ![32]⟩
abbrev S16384x32x1 : Shape := ⟨3, ![16384, 32, 1]⟩
abbrev S16384x32x2 : Shape := ⟨3, ![16384, 32, 2]⟩
abbrev S16384x64 : Shape := ⟨2, ![16384, 64]⟩
abbrev S64 : Shape := ⟨1, ![64]⟩
abbrev S16384x64x1 : Shape := ⟨3, ![16384, 64, 1]⟩
abbrev S16384x64x2 : Shape := ⟨3, ![16384, 64, 2]⟩
abbrev S16384x128 : Shape := ⟨2, ![16384, 128]⟩
abbrev S128 : Shape := ⟨1, ![128]⟩
abbrev S16384x128x1 : Shape := ⟨3, ![16384, 128, 1]⟩
abbrev S16384x128x2 : Shape := ⟨3, ![16384, 128, 2]⟩
abbrev S16384x256 : Shape := ⟨2, ![16384, 256]⟩
abbrev S256 : Shape := ⟨1, ![256]⟩
abbrev S16384x256x1 : Shape := ⟨3, ![16384, 256, 1]⟩
abbrev S16384x256x2 : Shape := ⟨3, ![16384, 256, 2]⟩
abbrev S16384x512 : Shape := ⟨2, ![16384, 512]⟩
abbrev S512 : Shape := ⟨1, ![512]⟩
abbrev S16384x512x1 : Shape := ⟨3, ![16384, 512, 1]⟩
abbrev S16384x512x2 : Shape := ⟨3, ![16384, 512, 2]⟩
abbrev S16384x1024 : Shape := ⟨2, ![16384, 1024]⟩

abbrev nBuf : Space → Nat
  | .hbm => 300
  | .vmem => 0
  | .smem => 0
  | _ => 0

abbrev hbmTy0_0 (i : Nat) : BufTy := match i % 128 with
  | 0 => ⟨S16384x2048, .f32⟩
  | 1 => ⟨S2048x1023, .f32⟩
  | 2 => ⟨S1023, .f32⟩
  | 3 => ⟨S1024x512, .f32⟩
  | 4 => ⟨S16384x1023, .f32⟩
  | 5 => ⟨S1x1023, .f32⟩
  | 6 => ⟨S16384x1023, .f32⟩
  | 7 => ⟨S16384x1023, .f32⟩
  | 8 => ⟨S16384x1023, .f32⟩
  | 9 => ⟨S16384x1023, .f32⟩
  | 10 => ⟨S_, .f32⟩
  | 11 => ⟨S16384x1023, .f32⟩
  | 12 => ⟨S16384x1023, .f32⟩
  | 13 => ⟨S_, .f32⟩
  | 14 => ⟨S16384x1023, .f32⟩
  | 15 => ⟨S16384x1023, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S_, .f32⟩
  | 28 => ⟨S1, .f32⟩
  | 29 => ⟨S_, .f32⟩
  | 30 => ⟨S1, .f32⟩
  | 31 => ⟨S1, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S16384x1, .f32⟩
  | 39 => ⟨S_, .f32⟩
  | 40 => ⟨S16384x1, .f32⟩
  | 41 => ⟨S16384x1, .f32⟩
  | 42 => ⟨S16384x1, .f32⟩
  | 43 => ⟨S16384x1x1, .f32⟩
  | 44 => ⟨S16384x1x1, .f32⟩
  | 45 => ⟨S16384x1x2, .f32⟩
  | 46 => ⟨S16384x2, .f32⟩
  | 47 => ⟨S16384x2, .f32⟩
  | 48 => ⟨S_, .f32⟩
  | 49 => ⟨S16384x2, .f32⟩
  | 50 => ⟨S16384x2, .f32⟩
  | 51 => ⟨S16384x2, .f32⟩
  | 52 => ⟨S_, .f32⟩
  | 53 => ⟨S16384x2, .f32⟩
  | 54 => ⟨S16384x2, .f32⟩
  | 55 => ⟨S16384x2, .f32⟩
  | 56 => ⟨S_, .f32⟩
  | 57 => ⟨S2, .f32⟩
  | 58 => ⟨S_, .f32⟩
  | 59 => ⟨S2, .f32⟩
  | 60 => ⟨S2, .f32⟩
  | 61 => ⟨S_, .f32⟩
  | 62 => ⟨S_, .f32⟩
  | 63 => ⟨S_, .f32⟩
  | 64 => ⟨S_, .f32⟩
  | 65 => ⟨S_, .f32⟩
  | 66 => ⟨S16384x2, .f32⟩
  | 67 => ⟨S_, .f32⟩
  | 68 => ⟨S16384x2, .f32⟩
  | 69 => ⟨S16384x2, .f32⟩
  | 70 => ⟨S16384x2, .f32⟩
  | 71 => ⟨S16384x2x1, .f32⟩
  | 72 => ⟨S16384x2x1, .f32⟩
  | 73 => ⟨S16384x2x2, .f32⟩
  | 74 => ⟨S16384x4, .f32⟩
  | 75 => ⟨S16384x4, .f32⟩
  | 76 => ⟨S_, .f32⟩
  | 77 => ⟨S16384x4, .f32⟩
  | 78 => ⟨S16384x4, .f32⟩
  | 79 => ⟨S16384x4, .f32⟩
  | 80 => ⟨S_, .f32⟩
  | 81 => ⟨S16384x4, .f32⟩
  | 82 => ⟨S16384x4, .f32⟩
  | 83 => ⟨S16384x4, .f32⟩
  | 84 => ⟨S_, .f32⟩
  | 85 => ⟨S4, .f32⟩
  | 86 => ⟨S_, .f32⟩
  | 87 => ⟨S4, .f32⟩
  | 88 => ⟨S4, .f32⟩
  | 89 => ⟨S_, .f32⟩
  | 90 => ⟨S_, .f32⟩
  | 91 => ⟨S_, .f32⟩
  | 92 => ⟨S_, .f32⟩
  | 93 => ⟨S_, .f32⟩
  | 94 => ⟨S16384x4, .f32⟩
  | 95 => ⟨S_, .f32⟩
  | 96 => ⟨S16384x4, .f32⟩
  | 97 => ⟨S16384x4, .f32⟩
  | 98 => ⟨S16384x4, .f32⟩
  | 99 => ⟨S16384x4x1, .f32⟩
  | 100 => ⟨S16384x4x1, .f32⟩
  | 101 => ⟨S16384x4x2, .f32⟩
  | 102 => ⟨S16384x8, .f32⟩
  | 103 => ⟨S16384x8, .f32⟩
  | 104 => ⟨S_, .f32⟩
  | 105 => ⟨S16384x8, .f32⟩
  | 106 => ⟨S16384x8, .f32⟩
  | 107 => ⟨S16384x8, .f32⟩
  | 108 => ⟨S_, .f32⟩
  | 109 => ⟨S16384x8, .f32⟩
  | 110 => ⟨S16384x8, .f32⟩
  | 111 => ⟨S16384x8, .f32⟩
  | 112 => ⟨S_, .f32⟩
  | 113 => ⟨S8, .f32⟩
  | 114 => ⟨S_, .f32⟩
  | 115 => ⟨S8, .f32⟩
  | 116 => ⟨S8, .f32⟩
  | 117 => ⟨S_, .f32⟩
  | 118 => ⟨S_, .f32⟩
  | 119 => ⟨S_, .f32⟩
  | 120 => ⟨S_, .f32⟩
  | 121 => ⟨S_, .f32⟩
  | 122 => ⟨S16384x8, .f32⟩
  | 123 => ⟨S_, .f32⟩
  | 124 => ⟨S16384x8, .f32⟩
  | 125 => ⟨S16384x8, .f32⟩
  | 126 => ⟨S16384x8, .f32⟩
  | 127 => ⟨S16384x8x1, .f32⟩
  | _ => ⟨S16384x2048, .f32⟩

abbrev hbmTy0_1 (i : Nat) : BufTy := match i % 128 with
  | 0 => ⟨S16384x8x1, .f32⟩
  | 1 => ⟨S16384x8x2, .f32⟩
  | 2 => ⟨S16384x16, .f32⟩
  | 3 => ⟨S16384x16, .f32⟩
  | 4 => ⟨S_, .f32⟩
  | 5 => ⟨S16384x16, .f32⟩
  | 6 => ⟨S16384x16, .f32⟩
  | 7 => ⟨S16384x16, .f32⟩
  | 8 => ⟨S_, .f32⟩
  | 9 => ⟨S16384x16, .f32⟩
  | 10 => ⟨S16384x16, .f32⟩
  | 11 => ⟨S16384x16, .f32⟩
  | 12 => ⟨S_, .f32⟩
  | 13 => ⟨S16, .f32⟩
  | 14 => ⟨S_, .f32⟩
  | 15 => ⟨S16, .f32⟩
  | 16 => ⟨S16, .f32⟩
  | 17 => ⟨S_, .f32⟩
  | 18 => ⟨S_, .f32⟩
  | 19 => ⟨S_, .f32⟩
  | 20 => ⟨S_, .f32⟩
  | 21 => ⟨S_, .f32⟩
  | 22 => ⟨S16384x16, .f32⟩
  | 23 => ⟨S_, .f32⟩
  | 24 => ⟨S16384x16, .f32⟩
  | 25 => ⟨S16384x16, .f32⟩
  | 26 => ⟨S16384x16, .f32⟩
  | 27 => ⟨S16384x16x1, .f32⟩
  | 28 => ⟨S16384x16x1, .f32⟩
  | 29 => ⟨S16384x16x2, .f32⟩
  | 30 => ⟨S16384x32, .f32⟩
  | 31 => ⟨S16384x32, .f32⟩
  | 32 => ⟨S_, .f32⟩
  | 33 => ⟨S16384x32, .f32⟩
  | 34 => ⟨S16384x32, .f32⟩
  | 35 => ⟨S16384x32, .f32⟩
  | 36 => ⟨S_, .f32⟩
  | 37 => ⟨S16384x32, .f32⟩
  | 38 => ⟨S16384x32, .f32⟩
  | 39 => ⟨S16384x32, .f32⟩
  | 40 => ⟨S_, .f32⟩
  | 41 => ⟨S32, .f32⟩
  | 42 => ⟨S_, .f32⟩
  | 43 => ⟨S32, .f32⟩
  | 44 => ⟨S32, .f32⟩
  | 45 => ⟨S_, .f32⟩
  | 46 => ⟨S_, .f32⟩
  | 47 => ⟨S_, .f32⟩
  | 48 => ⟨S_, .f32⟩
  | 49 => ⟨S_, .f32⟩
  | 50 => ⟨S16384x32, .f32⟩
  | 51 => ⟨S_, .f32⟩
  | 52 => ⟨S16384x32, .f32⟩
  | 53 => ⟨S16384x32, .f32⟩
  | 54 => ⟨S16384x32, .f32⟩
  | 55 => ⟨S16384x32x1, .f32⟩
  | 56 => ⟨S16384x32x1, .f32⟩
  | 57 => ⟨S16384x32x2, .f32⟩
  | 58 => ⟨S16384x64, .f32⟩
  | 59 => ⟨S16384x64, .f32⟩
  | 60 => ⟨S_, .f32⟩
  | 61 => ⟨S16384x64, .f32⟩
  | 62 => ⟨S16384x64, .f32⟩
  | 63 => ⟨S16384x64, .f32⟩
  | 64 => ⟨S_, .f32⟩
  | 65 => ⟨S16384x64, .f32⟩
  | 66 => ⟨S16384x64, .f32⟩
  | 67 => ⟨S16384x64, .f32⟩
  | 68 => ⟨S_, .f32⟩
  | 69 => ⟨S64, .f32⟩
  | 70 => ⟨S_, .f32⟩
  | 71 => ⟨S64, .f32⟩
  | 72 => ⟨S64, .f32⟩
  | 73 => ⟨S_, .f32⟩
  | 74 => ⟨S_, .f32⟩
  | 75 => ⟨S_, .f32⟩
  | 76 => ⟨S_, .f32⟩
  | 77 => ⟨S_, .f32⟩
  | 78 => ⟨S16384x64, .f32⟩
  | 79 => ⟨S_, .f32⟩
  | 80 => ⟨S16384x64, .f32⟩
  | 81 => ⟨S16384x64, .f32⟩
  | 82 => ⟨S16384x64, .f32⟩
  | 83 => ⟨S16384x64x1, .f32⟩
  | 84 => ⟨S16384x64x1, .f32⟩
  | 85 => ⟨S16384x64x2, .f32⟩
  | 86 => ⟨S16384x128, .f32⟩
  | 87 => ⟨S16384x128, .f32⟩
  | 88 => ⟨S_, .f32⟩
  | 89 => ⟨S16384x128, .f32⟩
  | 90 => ⟨S16384x128, .f32⟩
  | 91 => ⟨S16384x128, .f32⟩
  | 92 => ⟨S_, .f32⟩
  | 93 => ⟨S16384x128, .f32⟩
  | 94 => ⟨S16384x128, .f32⟩
  | 95 => ⟨S16384x128, .f32⟩
  | 96 => ⟨S_, .f32⟩
  | 97 => ⟨S128, .f32⟩
  | 98 => ⟨S_, .f32⟩
  | 99 => ⟨S128, .f32⟩
  | 100 => ⟨S128, .f32⟩
  | 101 => ⟨S_, .f32⟩
  | 102 => ⟨S_, .f32⟩
  | 103 => ⟨S_, .f32⟩
  | 104 => ⟨S_, .f32⟩
  | 105 => ⟨S_, .f32⟩
  | 106 => ⟨S16384x128, .f32⟩
  | 107 => ⟨S_, .f32⟩
  | 108 => ⟨S16384x128, .f32⟩
  | 109 => ⟨S16384x128, .f32⟩
  | 110 => ⟨S16384x128, .f32⟩
  | 111 => ⟨S16384x128x1, .f32⟩
  | 112 => ⟨S16384x128x1, .f32⟩
  | 113 => ⟨S16384x128x2, .f32⟩
  | 114 => ⟨S16384x256, .f32⟩
  | 115 => ⟨S16384x256, .f32⟩
  | 116 => ⟨S_, .f32⟩
  | 117 => ⟨S16384x256, .f32⟩
  | 118 => ⟨S16384x256, .f32⟩
  | 119 => ⟨S16384x256, .f32⟩
  | 120 => ⟨S_, .f32⟩
  | 121 => ⟨S16384x256, .f32⟩
  | 122 => ⟨S16384x256, .f32⟩
  | 123 => ⟨S16384x256, .f32⟩
  | 124 => ⟨S_, .f32⟩
  | 125 => ⟨S256, .f32⟩
  | 126 => ⟨S_, .f32⟩
  | 127 => ⟨S256, .f32⟩
  | _ => ⟨S16384x2048, .f32⟩

abbrev hbmTy0_2 (i : Nat) : BufTy := match i % 128 with
  | 0 => ⟨S256, .f32⟩
  | 1 => ⟨S_, .f32⟩
  | 2 => ⟨S_, .f32⟩
  | 3 => ⟨S_, .f32⟩
  | 4 => ⟨S_, .f32⟩
  | 5 => ⟨S_, .f32⟩
  | 6 => ⟨S16384x256, .f32⟩
  | 7 => ⟨S_, .f32⟩
  | 8 => ⟨S16384x256, .f32⟩
  | 9 => ⟨S16384x256, .f32⟩
  | 10 => ⟨S16384x256, .f32⟩
  | 11 => ⟨S16384x256x1, .f32⟩
  | 12 => ⟨S16384x256x1, .f32⟩
  | 13 => ⟨S16384x256x2, .f32⟩
  | 14 => ⟨S16384x512, .f32⟩
  | 15 => ⟨S16384x512, .f32⟩
  | 16 => ⟨S_, .f32⟩
  | 17 => ⟨S16384x512, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .f32⟩
  | 24 => ⟨S_, .f32⟩
  | 25 => ⟨S512, .f32⟩
  | 26 => ⟨S_, .f32⟩
  | 27 => ⟨S512, .f32⟩
  | 28 => ⟨S512, .f32⟩
  | 29 => ⟨S_, .f32⟩
  | 30 => ⟨S_, .f32⟩
  | 31 => ⟨S_, .f32⟩
  | 32 => ⟨S_, .f32⟩
  | 33 => ⟨S_, .f32⟩
  | 34 => ⟨S16384x512, .f32⟩
  | 35 => ⟨S_, .f32⟩
  | 36 => ⟨S16384x512, .f32⟩
  | 37 => ⟨S16384x512, .f32⟩
  | 38 => ⟨S16384x512, .f32⟩
  | 39 => ⟨S16384x512x1, .f32⟩
  | 40 => ⟨S16384x512x1, .f32⟩
  | 41 => ⟨S16384x512x2, .f32⟩
  | 42 => ⟨S16384x1024, .f32⟩
  | 43 => ⟨S16384x512, .f32⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_16 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_17 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_18 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_cst_20 : Ref sig .tc := ⟨.hbm, 86, rfl⟩
abbrev main_v61 : Ref sig .tc := ⟨.hbm, 87, rfl⟩
abbrev main_v62 : Ref sig .tc := ⟨.hbm, 88, rfl⟩
abbrev main_cst_21 : Ref sig .tc := ⟨.hbm, 89, rfl⟩
abbrev main_v63 : Ref sig .tc := ⟨.hbm, 90, rfl⟩
abbrev main_cst_22 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_23 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_24 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_25 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_26 : Ref sig .tc := ⟨.hbm, 112, rfl⟩
abbrev main_v81 : Ref sig .tc := ⟨.hbm, 113, rfl⟩
abbrev main_cst_27 : Ref sig .tc := ⟨.hbm, 114, rfl⟩
abbrev main_v82 : Ref sig .tc := ⟨.hbm, 115, rfl⟩
abbrev main_v83 : Ref sig .tc := ⟨.hbm, 116, rfl⟩
abbrev main_cst_28 : Ref sig .tc := ⟨.hbm, 117, rfl⟩
abbrev main_v84 : Ref sig .tc := ⟨.hbm, 118, rfl⟩
abbrev main_cst_29 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_30 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_31 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_32 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_33 : Ref sig .tc := ⟨.hbm, 140, rfl⟩
abbrev main_v102 : Ref sig .tc := ⟨.hbm, 141, rfl⟩
abbrev main_cst_34 : Ref sig .tc := ⟨.hbm, 142, rfl⟩
abbrev main_v103 : Ref sig .tc := ⟨.hbm, 143, rfl⟩
abbrev main_v104 : Ref sig .tc := ⟨.hbm, 144, rfl⟩
abbrev main_cst_35 : Ref sig .tc := ⟨.hbm, 145, rfl⟩
abbrev main_v105 : Ref sig .tc := ⟨.hbm, 146, rfl⟩
abbrev main_cst_36 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_37 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_38 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_39 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_40 : Ref sig .tc := ⟨.hbm, 168, rfl⟩
abbrev main_v123 : Ref sig .tc := ⟨.hbm, 169, rfl⟩
abbrev main_cst_41 : Ref sig .tc := ⟨.hbm, 170, rfl⟩
abbrev main_v124 : Ref sig .tc := ⟨.hbm, 171, rfl⟩
abbrev main_v125 : Ref sig .tc := ⟨.hbm, 172, rfl⟩
abbrev main_cst_42 : Ref sig .tc := ⟨.hbm, 173, rfl⟩
abbrev main_v126 : Ref sig .tc := ⟨.hbm, 174, rfl⟩
abbrev main_cst_43 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_44 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_45 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_cst_46 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_47 : Ref sig .tc := ⟨.hbm, 196, rfl⟩
abbrev main_v144 : Ref sig .tc := ⟨.hbm, 197, rfl⟩
abbrev main_cst_48 : Ref sig .tc := ⟨.hbm, 198, rfl⟩
abbrev main_v145 : Ref sig .tc := ⟨.hbm, 199, rfl⟩
abbrev main_v146 : Ref sig .tc := ⟨.hbm, 200, rfl⟩
abbrev main_cst_49 : Ref sig .tc := ⟨.hbm, 201, rfl⟩
abbrev main_v147 : Ref sig .tc := ⟨.hbm, 202, rfl⟩
abbrev main_cst_50 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_51 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_cst_52 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_53 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_cst_54 : Ref sig .tc := ⟨.hbm, 224, rfl⟩
abbrev main_v165 : Ref sig .tc := ⟨.hbm, 225, rfl⟩
abbrev main_cst_55 : Ref sig .tc := ⟨.hbm, 226, rfl⟩
abbrev main_v166 : Ref sig .tc := ⟨.hbm, 227, rfl⟩
abbrev main_v167 : Ref sig .tc := ⟨.hbm, 228, rfl⟩
abbrev main_cst_56 : Ref sig .tc := ⟨.hbm, 229, rfl⟩
abbrev main_v168 : Ref sig .tc := ⟨.hbm, 230, rfl⟩
abbrev main_cst_57 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_cst_58 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_cst_59 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_cst_60 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_cst_61 : Ref sig .tc := ⟨.hbm, 252, rfl⟩
abbrev main_v186 : Ref sig .tc := ⟨.hbm, 253, rfl⟩
abbrev main_cst_62 : Ref sig .tc := ⟨.hbm, 254, rfl⟩
abbrev main_v187 : Ref sig .tc := ⟨.hbm, 255, rfl⟩
abbrev main_v188 : Ref sig .tc := ⟨.hbm, 256, rfl⟩
abbrev main_cst_63 : Ref sig .tc := ⟨.hbm, 257, rfl⟩
abbrev main_v189 : Ref sig .tc := ⟨.hbm, 258, rfl⟩
abbrev main_cst_64 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_cst_65 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_cst_66 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_cst_67 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_cst_68 : Ref sig .tc := ⟨.hbm, 280, rfl⟩
abbrev main_v207 : Ref sig .tc := ⟨.hbm, 281, rfl⟩
abbrev main_cst_69 : Ref sig .tc := ⟨.hbm, 282, rfl⟩
abbrev main_v208 : Ref sig .tc := ⟨.hbm, 283, rfl⟩
abbrev main_v209 : Ref sig .tc := ⟨.hbm, 284, rfl⟩
abbrev main_cst_70 : Ref sig .tc := ⟨.hbm, 285, rfl⟩
abbrev main_v210 : Ref sig .tc := ⟨.hbm, 286, rfl⟩
abbrev main_cst_71 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_cst_72 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩

abbrev nD : Nat := 1
abbrev τ : Topo := Topo.v7x

variable {F : FTy → Type} [FloatOps F]

class Facts₀ : Prop where
  bcast_S1023_S1x1023_1 : S1023.BroadcastsInDim S1x1023 (![1] : Fin 1 → Fin S1x1023.rank)
  bcast_S1x1023_S16384x1023_0_1 : S1x1023.BroadcastsInDim S16384x1023 (![0, 1] : Fin 2 → Fin S16384x1023.rank)
  bcast_S_S16384x1023 : S_.BroadcastsInDim S16384x1023 (![] : Fin 0 → Fin S16384x1023.rank)
  bcast_S_S16384x1 : S_.BroadcastsInDim S16384x1 (![] : Fin 0 → Fin S16384x1.rank)
  slices_S16384x1023_S16384x1_0_0 : S16384x1023.Slices ![0, 0] S16384x1
  reducesTo_S16384x1_S1_d0 : S16384x1.ReducesTo [0] S1
  h_S_ : 0 < S_.numel
  bcast_S_S1 : S_.BroadcastsInDim S1 (![] : Fin 0 → Fin S1.rank)
  reducesTo_S1_S_d0 : S1.ReducesTo [0] S_
  bcast_S16384x1_S16384x1x1_0_1 : S16384x1.BroadcastsInDim S16384x1x1 (![0, 1] : Fin 2 → Fin S16384x1x1.rank)
  concatenates_S16384x1x1_S16384x1x1_S16384x1x2_d2 : Shape.Concatenates [S16384x1x1, S16384x1x1] S16384x1x2 2
  shapeCasts_S16384x1x2_S16384x2 : S16384x1x2.ShapeCasts S16384x2
  slices_S16384x1023_S16384x2_0_1 : S16384x1023.Slices ![0, 1] S16384x2
  bcast_S_S16384x2 : S_.BroadcastsInDim S16384x2 (![] : Fin 0 → Fin S16384x2.rank)
  reducesTo_S16384x2_S2_d0 : S16384x2.ReducesTo [0] S2
  bcast_S_S2 : S_.BroadcastsInDim S2 (![] : Fin 0 → Fin S2.rank)
  reducesTo_S2_S_d0 : S2.ReducesTo [0] S_
  bcast_S16384x2_S16384x2x1_0_1 : S16384x2.BroadcastsInDim S16384x2x1 (![0, 1] : Fin 2 → Fin S16384x2x1.rank)
  concatenates_S16384x2x1_S16384x2x1_S16384x2x2_d2 : Shape.Concatenates [S16384x2x1, S16384x2x1] S16384x2x2 2
  shapeCasts_S16384x2x2_S16384x4 : S16384x2x2.ShapeCasts S16384x4
  slices_S16384x1023_S16384x4_0_3 : S16384x1023.Slices ![0, 3] S16384x4
  bcast_S_S16384x4 : S_.BroadcastsInDim S16384x4 (![] : Fin 0 → Fin S16384x4.rank)
  reducesTo_S16384x4_S4_d0 : S16384x4.ReducesTo [0] S4
  bcast_S_S4 : S_.BroadcastsInDim S4 (![] : Fin 0 → Fin S4.rank)
  reducesTo_S4_S_d0 : S4.ReducesTo [0] S_
  bcast_S16384x4_S16384x4x1_0_1 : S16384x4.BroadcastsInDim S16384x4x1 (![0, 1] : Fin 2 → Fin S16384x4x1.rank)
  concatenates_S16384x4x1_S16384x4x1_S16384x4x2_d2 : Shape.Concatenates [S16384x4x1, S16384x4x1] S16384x4x2 2
  shapeCasts_S16384x4x2_S16384x8 : S16384x4x2.ShapeCasts S16384x8
  slices_S16384x1023_S16384x8_0_7 : S16384x1023.Slices ![0, 7] S16384x8
  bcast_S_S16384x8 : S_.BroadcastsInDim S16384x8 (![] : Fin 0 → Fin S16384x8.rank)
  reducesTo_S16384x8_S8_d0 : S16384x8.ReducesTo [0] S8
  bcast_S_S8 : S_.BroadcastsInDim S8 (![] : Fin 0 → Fin S8.rank)
  reducesTo_S8_S_d0 : S8.ReducesTo [0] S_
  bcast_S16384x8_S16384x8x1_0_1 : S16384x8.BroadcastsInDim S16384x8x1 (![0, 1] : Fin 2 → Fin S16384x8x1.rank)
  concatenates_S16384x8x1_S16384x8x1_S16384x8x2_d2 : Shape.Concatenates [S16384x8x1, S16384x8x1] S16384x8x2 2
  shapeCasts_S16384x8x2_S16384x16 : S16384x8x2.ShapeCasts S16384x16
  slices_S16384x1023_S16384x16_0_15 : S16384x1023.Slices ![0, 15] S16384x16
  bcast_S_S16384x16 : S_.BroadcastsInDim S16384x16 (![] : Fin 0 → Fin S16384x16.rank)
  reducesTo_S16384x16_S16_d0 : S16384x16.ReducesTo [0] S16
  bcast_S_S16 : S_.BroadcastsInDim S16 (![] : Fin 0 → Fin S16.rank)
  reducesTo_S16_S_d0 : S16.ReducesTo [0] S_
  bcast_S16384x16_S16384x16x1_0_1 : S16384x16.BroadcastsInDim S16384x16x1 (![0, 1] : Fin 2 → Fin S16384x16x1.rank)
  concatenates_S16384x16x1_S16384x16x1_S16384x16x2_d2 : Shape.Concatenates [S16384x16x1, S16384x16x1] S16384x16x2 2
  shapeCasts_S16384x16x2_S16384x32 : S16384x16x2.ShapeCasts S16384x32
  slices_S16384x1023_S16384x32_0_31 : S16384x1023.Slices ![0, 31] S16384x32
  bcast_S_S16384x32 : S_.BroadcastsInDim S16384x32 (![] : Fin 0 → Fin S16384x32.rank)
  reducesTo_S16384x32_S32_d0 : S16384x32.ReducesTo [0] S32
  bcast_S_S32 : S_.BroadcastsInDim S32 (![] : Fin 0 → Fin S32.rank)
  reducesTo_S32_S_d0 : S32.ReducesTo [0] S_
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  shapeCasts_S16384x32x2_S16384x64 : S16384x32x2.ShapeCasts S16384x64
  slices_S16384x1023_S16384x64_0_63 : S16384x1023.Slices ![0, 63] S16384x64
  bcast_S_S16384x64 : S_.BroadcastsInDim S16384x64 (![] : Fin 0 → Fin S16384x64.rank)
  reducesTo_S16384x64_S64_d0 : S16384x64.ReducesTo [0] S64
  bcast_S_S64 : S_.BroadcastsInDim S64 (![] : Fin 0 → Fin S64.rank)
  reducesTo_S64_S_d0 : S64.ReducesTo [0] S_
  bcast_S16384x64_S16384x64x1_0_1 : S16384x64.BroadcastsInDim S16384x64x1 (![0, 1] : Fin 2 → Fin S16384x64x1.rank)
  concatenates_S16384x64x1_S16384x64x1_S16384x64x2_d2 : Shape.Concatenates [S16384x64x1, S16384x64x1] S16384x64x2 2
  shapeCasts_S16384x64x2_S16384x128 : S16384x64x2.ShapeCasts S16384x128
  slices_S16384x1023_S16384x128_0_127 : S16384x1023.Slices ![0, 127] S16384x128
  bcast_S_S16384x128 : S_.BroadcastsInDim S16384x128 (![] : Fin 0 → Fin S16384x128.rank)
  reducesTo_S16384x128_S128_d0 : S16384x128.ReducesTo [0] S128
  bcast_S_S128 : S_.BroadcastsInDim S128 (![] : Fin 0 → Fin S128.rank)
  reducesTo_S128_S_d0 : S128.ReducesTo [0] S_
  bcast_S16384x128_S16384x128x1_0_1 : S16384x128.BroadcastsInDim S16384x128x1 (![0, 1] : Fin 2 → Fin S16384x128x1.rank)
  concatenates_S16384x128x1_S16384x128x1_S16384x128x2_d2 : Shape.Concatenates [S16384x128x1, S16384x128x1] S16384x128x2 2
  shapeCasts_S16384x128x2_S16384x256 : S16384x128x2.ShapeCasts S16384x256
  slices_S16384x1023_S16384x256_0_255 : S16384x1023.Slices ![0, 255] S16384x256
  bcast_S_S16384x256 : S_.BroadcastsInDim S16384x256 (![] : Fin 0 → Fin S16384x256.rank)
  reducesTo_S16384x256_S256_d0 : S16384x256.ReducesTo [0] S256
  bcast_S_S256 : S_.BroadcastsInDim S256 (![] : Fin 0 → Fin S256.rank)
  reducesTo_S256_S_d0 : S256.ReducesTo [0] S_
  bcast_S16384x256_S16384x256x1_0_1 : S16384x256.BroadcastsInDim S16384x256x1 (![0, 1] : Fin 2 → Fin S16384x256x1.rank)
  concatenates_S16384x256x1_S16384x256x1_S16384x256x2_d2 : Shape.Concatenates [S16384x256x1, S16384x256x1] S16384x256x2 2
  shapeCasts_S16384x256x2_S16384x512 : S16384x256x2.ShapeCasts S16384x512
  slices_S16384x1023_S16384x512_0_511 : S16384x1023.Slices ![0, 511] S16384x512
  bcast_S_S16384x512 : S_.BroadcastsInDim S16384x512 (![] : Fin 0 → Fin S16384x512.rank)
  reducesTo_S16384x512_S512_d0 : S16384x512.ReducesTo [0] S512
  bcast_S_S512 : S_.BroadcastsInDim S512 (![] : Fin 0 → Fin S512.rank)
  reducesTo_S512_S_d0 : S512.ReducesTo [0] S_
  bcast_S16384x512_S16384x512x1_0_1 : S16384x512.BroadcastsInDim S16384x512x1 (![0, 1] : Fin 2 → Fin S16384x512x1.rank)
  concatenates_S16384x512x1_S16384x512x1_S16384x512x2_d2 : Shape.Concatenates [S16384x512x1, S16384x512x1] S16384x512x2 2
  shapeCasts_S16384x512x2_S16384x1024 : S16384x512x2.ShapeCasts S16384x1024
  dot_S16384x2048_S2048x1023_S16384x1023_1_0_0_1_n_n_wf : DotDims.WF S16384x2048 S2048x1023 S16384x1023 [1] [0] [0] [1] [] []
  dot_S16384x1024_S1024x512_S16384x512_1_0_0_1_n_n_wf : DotDims.WF S16384x1024 S1024x512 S16384x512 [1] [0] [0] [1] [] []

variable [Facts₀]

def dot_S16384x2048_S2048x1023_S16384x1023_1_0_0_1_n_n : DotDims S16384x2048 S2048x1023 S16384x1023 where
  lhsContracting := [1]
  rhsContracting := [0]
  lhsNonContracting := [0]
  rhsNonContracting := [1]
  lhsBatch := []
  rhsBatch := []
  wf := dot_S16384x2048_S2048x1023_S16384x1023_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.KernelRun.lean ====
/-
  The idealized kernel's run with its two results named. Every weakly fair execution of @main terminates, nothing
  faulting, and in the final state each unscoped buffer holds what the last segment boundary's contents say: the
  result array of the second pallas_call, the scalar regulariser the host operations computed, and the four argument
  arrays as launched. The contents at the boundaries are the fold through @main's segments: a host stretch applies its
  operations in order, a pallas_call replaces its output array by what its write-backs leave and keeps every other
  buffer. The launch over the segments is the library's several-region theorem; only the final reading is wider than a
  frame's, which keeps the arguments and forgets the results.
-/
import proofs.«135782_j18683107738106_1_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at the results: the second pallas_call's output array and the regulariser's buffer end at the last
    boundary's contents, the arguments as launched. -/
theorem run_results : θ_run defs (onTc (τ := τ) (main (F := F))) ⟨m, fun _ => 0, ρ⟩ (fun r => ∀ c : Dev nD,
      r.2.mem ((c.tc : Thread nD τ).loc main_v218) = W8 m ρ c (Proc.devRef .tc main_v218)
      ∧ r.2.mem ((c.tc : Thread nD τ).loc main_v209) = W8 m ρ c (Proc.devRef .tc main_v209)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v218 (by decide)),
       h c _ (mem_uc main_v209 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.Whole

end
-- ==== Proof.GlueEnds.lean ====
import proofs.«135782_j18683107738106_1_alg».proof.Proof.Gen.KernelIdeal.Frame
import proofs.«135782_j18683107738106_1_alg».proof.Proof.Gen.ReferenceIdeal.Run
import Idealize.ShloMosaic.Lib.StableHlo.Run
import Idealize.ShloMosaic.Lib.Pipeline.Frame
import Idealize.ShloMosaic.Lib.ValueIdx
import Idealize.ShloMosaic.Lib.Pipeline.Value

/-!
# The two ends of the host programs between and around the matrix products

Both programs are lists of host operations, and what a buffer holds after a list is the fold of the operations'
results over the contents before it. This module reads the ends of the two lists: the first operation between the
two products of the kernel's program cuts the pad column off the first product's result, and no operation there
writes the bf16 leaf values; the first twelve operations of the reference compute its splitter probabilities, its
last one is the product with the leaf values, and none writes the leaf argument. Two facts about lists say that a
fold over a list is the fold over any front part followed by the fold over the rest.
-/

noncomputable section

namespace Cert.Ends

open Idealize.ShloMosaic Idealize.ShloMosaic.TcCoe Idealize.ShloMosaic.ValueIdx

/-! ## Folding a list of host operations part by part -/

section Lists

variable {τ : Topo} {sig : RefSig} {Val : EltTy → Type}

/-- The fold over a list is the fold over its first `n` operations followed by the fold over the rest. -/
theorem after_take_drop (l : List (HloOp τ sig Val)) (n : Nat) (V : Valuation τ sig Val) :
    StableHlo.after l V = StableHlo.after (l.drop n) (StableHlo.after (l.take n) V) := by
  rw [← StableHlo.after_append, List.take_append_drop]

/-- The fold over a list from position `a` on is the fold over the next `n` operations followed by the fold from
    position `a + n` on. -/
theorem after_drop_split (l : List (HloOp τ sig Val)) (a n : Nat) (V : Valuation τ sig Val) :
    StableHlo.after (l.drop a) V = StableHlo.after (l.drop (a + n)) (StableHlo.after ((l.drop a).take n) V) := by
  rw [← StableHlo.after_append, ← List.drop_drop, List.take_append_drop]

end Lists

variable {F : FTy → Type} [FloatOps F]

/-! ## The kernel's program between its two products -/

/-- No host operation between the two products writes the bf16 leaf values, and the first product's arrays are
    other buffers: the second product finds them as the first product's entry did. -/
theorem W7_leaves (m : (ℓ : Loc Cert.KernelIdeal.nD Cert.KernelIdeal.τ Cert.KernelIdeal.sig) → Buf (Elt F) ℓ)
    (ρ : Dev Cert.KernelIdeal.nD → PrngReg) (c : Dev Cert.KernelIdeal.nD) :
    Cert.KernelIdeal.Gen.W7 (F := F) m ρ c (Proc.devRef .tc Cert.KernelIdeal.main_v4)
      = Cert.KernelIdeal.Gen.W5 m ρ c (Proc.devRef .tc Cert.KernelIdeal.main_v4) :=
  calc Cert.KernelIdeal.Gen.W7 (F := F) m ρ c (Proc.devRef .tc Cert.KernelIdeal.main_v4)
    _ = Cert.KernelIdeal.Gen.W6 m ρ c (Proc.devRef .tc Cert.KernelIdeal.main_v4) :=
        StableHlo.after_of_forall_not_mem (b := Proc.devRef .tc Cert.KernelIdeal.main_v4) _ _ (List.forall_iff_forall_mem.mp (by
          simp only [Cert.KernelIdeal.Gen.hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes, StableHlo.binaryIndexed_writes,
            Finset.mem_singleton]
          repeat' apply And.intro
          all_goals exact StableHlo.devRef_ne_of_ne (by decide)))
    _ = Cert.KernelIdeal.Gen.W5 m ρ c (Proc.devRef .tc Cert.KernelIdeal.main_v4) :=
        Cert.KernelIdeal.Gen.W6_of_ne m ρ c Cert.KernelIdeal.main_v4 (by decide)

set_option maxRecDepth 8192 in
/-- The first operation after the first product cuts the pad column off: entry `(p, q)` of the cut array is entry
    `(p, q)` of the product's `[16384, 1024]` result. -/
theorem sliced_entry (V : Valuation Cert.KernelIdeal.τ Cert.KernelIdeal.sig (Elt F)) (p : Fin 16384) (q : Fin 1023) :
    StableHlo.after ((Cert.KernelIdeal.Gen.hostOps1 (F := F)).take 1) V (Proc.devRef .tc Cert.KernelIdeal.main_v6) (ix2 p q)
      = V (Proc.devRef .tc Cert.KernelIdeal.main_v5) (ix2 p (⟨q.val, by omega⟩ : Fin 1024)) := by
  simp only [Cert.KernelIdeal.Gen.hostOps1, List.take_succ_cons, List.take_zero]
  after_results
  exact extractStridedSlice_apply ![0, 0] _ Cert.KernelIdeal.Facts₀.slices_S16384x1024_S16384x1023_0_0 (ix2 p q)
    (ix2 p (⟨q.val, by omega⟩ : Fin 1024)) (fun a => match a with
      | ⟨0, _⟩ => (show p.val = 0 + p.val by omega)
      | ⟨1, _⟩ => (show q.val = 0 + q.val by omega))

/-! ## The reference's program -/

set_option maxRecDepth 8192 in
/-- The reference's first twelve operations leave its splitter probabilities, as the composed term of the arguments. -/
theorem ref_head (V0 : Valuation Cert.ReferenceIdeal.τ Cert.ReferenceIdeal.sig (Elt F)) :
    StableHlo.after ((Cert.ReferenceIdeal.Value.ops (F := F)).take 12) V0 (Proc.devRef .tc Cert.ReferenceIdeal.main_v9)
      = Cert.ReferenceIdeal.Value.res_main_v9 V0 := by
  simp only [Cert.ReferenceIdeal.Value.ops, Cert.ReferenceIdeal.Value.ops_part0, List.cons_append, List.nil_append,
    List.take_succ_cons, List.take_zero]
  after_results
  rfl

set_option maxRecDepth 8192 in
/-- The reference's last operation, alone: the product of the leaf probabilities with the leaf values. -/
theorem ops_last :
    (Cert.ReferenceIdeal.Value.ops (F := F)).drop 295
      = [StableHlo.binary Cert.ReferenceIdeal.main_v220 Cert.ReferenceIdeal.main_arg3 Cert.ReferenceIdeal.main_v221
          ((fun l r => Host.dotGeneral Cert.ReferenceIdeal.dot_S16384x1024_S1024x512_S16384x512_1_0_0_1_n_n none l r) :
            (⟨Cert.ReferenceIdeal.S16384x1024, .f32⟩ : BufTy).Contents (Elt F) → (⟨Cert.ReferenceIdeal.S1024x512, .f32⟩ : BufTy).Contents (Elt F)
              → (⟨Cert.ReferenceIdeal.S16384x512, .f32⟩ : BufTy).Contents (Elt F))] := by
  simp only [Cert.ReferenceIdeal.Value.ops, Cert.ReferenceIdeal.Value.ops_part0, Cert.ReferenceIdeal.Value.ops_part1,
    Cert.ReferenceIdeal.Value.ops_part2, Cert.ReferenceIdeal.Value.ops_part3, Cert.ReferenceIdeal.Value.ops_part4,
    List.cons_append, List.nil_append, List.drop_succ_cons, List.drop_zero]

variable (W : Valuation Cert.ReferenceIdeal.τ Cert.ReferenceIdeal.sig (Elt F))

/-- The last operation leaves the product in the result buffer, -/
theorem ref_last_out :
    StableHlo.after ((Cert.ReferenceIdeal.Value.ops (F := F)).drop 295) W (Proc.devRef .tc Cert.ReferenceIdeal.main_v221)
      = Host.dotGeneral Cert.ReferenceIdeal.dot_S16384x1024_S1024x512_S16384x512_1_0_0_1_n_n none
          (W (Proc.devRef .tc Cert.ReferenceIdeal.main_v220)) (W (Proc.devRef .tc Cert.ReferenceIdeal.main_arg3)) := by
  rw [ops_last]
  after_results

/-- and the leaf probabilities, -/
theorem ref_last_probs :
    StableHlo.after ((Cert.ReferenceIdeal.Value.ops (F := F)).drop 295) W (Proc.devRef .tc Cert.ReferenceIdeal.main_v220)
      = W (Proc.devRef .tc Cert.ReferenceIdeal.main_v220) := by
  rw [ops_last]
  after_results

/-- the regulariser -/
theorem ref_last_reg :
    StableHlo.after ((Cert.ReferenceIdeal.Value.ops (F := F)).drop 295) W (Proc.devRef .tc Cert.ReferenceIdeal.main_v212)
      = W (Proc.devRef .tc Cert.ReferenceIdeal.main_v212) := by
  rw [ops_last]
  after_results

/-- and the leaf values as it found them. -/
theorem ref_last_leaves :
    StableHlo.after ((Cert.ReferenceIdeal.Value.ops (F := F)).drop 295) W (Proc.devRef .tc Cert.ReferenceIdeal.main_arg3)
      = W (Proc.devRef .tc Cert.ReferenceIdeal.main_arg3) := by
  rw [ops_last]
  after_results

/-- No operation of the reference writes the leaf argument. -/
theorem ref_leaves_kept (V0 : Valuation Cert.ReferenceIdeal.τ Cert.ReferenceIdeal.sig (Elt F)) :
    StableHlo.after (Cert.ReferenceIdeal.Value.ops (F := F)) V0 (Proc.devRef .tc Cert.ReferenceIdeal.main_arg3)
      = V0 (Proc.devRef .tc Cert.ReferenceIdeal.main_arg3) :=
  (congrFun (Cert.ReferenceIdeal.Value.after_ops V0) _).trans (Cert.ReferenceIdeal.Value.val5_main_arg3 V0)

end Cert.Ends
-- ==== Proof.TreeLevelsLow.lean ====
/-
  The soft decision tree's host recursion, one level at a time, in both programs at once (levels 1 to 5).

  Between its two pallas_calls the kernel's @main runs, on the splitter probabilities P (one column per internal node of
  a complete binary tree of depth 10), the same recursion the reference runs: at depth d it takes the 2^d columns of P
  that belong to the nodes of that depth, p = P[:, 2^d − 1 : 2^(d+1) − 1]; adds to the regulariser the term
  −½·2^(−d) · Σ_nodes mean_rows log(max(p·(1 − p), ε)); and splits the path probabilities, probs'[:, 2j] =
  probs[:, j]·p[:, j], probs'[:, 2j+1] = probs[:, j]·(1 − p[:, j]) (two products laid side by side along a new last
  axis and flattened). The two programs spell a level with the same operations on differently numbered buffers. So a
  level is a SIMULATION step: if the two memories agree on P, on the path probabilities of depth d and on the
  regulariser so far, then after the level's operations they agree on P, on the path probabilities of depth d+1 and on
  the new regulariser. Each step reads the level's operations off the two programs' lists (a stretch of 28 consecutive
  operations; 31 for the first level, which also builds the constant column of ones), composes them, and compares two
  small terms over the three shared inputs: nothing is ever evaluated, no array is opened.

  The side-by-side layout is a concatenation of a list of arrays of possibly different shapes; its two operands are
  named as one function before the operations are composed, so that they stay plain arguments while the inputs are
  rewritten.
-/
import proofs.«135782_j18683107738106_1_alg».proof.Proof.Gen.KernelIdeal.Launch
import proofs.«135782_j18683107738106_1_alg».proof.Proof.Gen.ReferenceIdeal.Run
import Idealize.ShloMosaic.Lib.StableHlo.Run
import Idealize.ShloMosaic.Lib.Pipeline.Frame

noncomputable section

namespace Cert.Tree

open Idealize.ShloMosaic Idealize.ShloMosaic.StableHlo

variable {F : FTy → Type} [FloatOps F]

/-- A valuation of the kernel program's buffers, and one of the reference's. -/
local notation "ValK" => Valuation Cert.KernelIdeal.τ Cert.KernelIdeal.sig (Elt F)
local notation "ValR" => Valuation Cert.ReferenceIdeal.τ Cert.ReferenceIdeal.sig (Elt F)
/-- The kernel's host operations between its two pallas_calls, and the reference's @main, as lists. -/
local notation "opsK" => (Cert.KernelIdeal.Gen.hostOps1 (F := F))
local notation "opsR" => (Cert.ReferenceIdeal.Value.ops (F := F))

set_option maxRecDepth 8192 in
set_option maxHeartbeats 2000000 in
/-- Level 1 (depth 0, the root): from memories that agree on P, the path probabilities of depth 1 (the root's
    p and 1 − p), the regulariser's first term, and P again. -/
theorem level1 (VK : ValK) (VR : ValR)
    (hP : VK (Proc.devRef .tc Cert.KernelIdeal.main_v6) = VR (Proc.devRef .tc Cert.ReferenceIdeal.main_v9)) :
    after (((List.drop 1 opsK)).take 31) VK (Proc.devRef .tc Cert.KernelIdeal.main_v28)
        = after (((List.drop 12 opsR)).take 31) VR (Proc.devRef .tc Cert.ReferenceIdeal.main_v31)
    ∧ after (((List.drop 1 opsK)).take 31) VK (Proc.devRef .tc Cert.KernelIdeal.main_v20)
        = after (((List.drop 12 opsR)).take 31) VR (Proc.devRef .tc Cert.ReferenceIdeal.main_v23)
    ∧ after (((List.drop 1 opsK)).take 31) VK (Proc.devRef .tc Cert.KernelIdeal.main_v6)
        = after (((List.drop 12 opsR)).take 31) VR (Proc.devRef .tc Cert.ReferenceIdeal.main_v9) := by
  simp only [Cert.KernelIdeal.Gen.hostOps1, Cert.ReferenceIdeal.Value.ops, Cert.ReferenceIdeal.Value.ops_part0,
    Cert.ReferenceIdeal.Value.ops_part1, Cert.ReferenceIdeal.Value.ops_part2, Cert.ReferenceIdeal.Value.ops_part3,
    Cert.ReferenceIdeal.Value.ops_part4, List.cons_append, List.nil_append, List.drop_succ_cons, List.drop_zero,
    List.take_succ_cons, List.take_zero]
  refine ⟨?_, ?_, ?_⟩
  · generalize hcat : (fun (a b : (⟨Cert.KernelIdeal.S16384x1x1, .f32⟩ : BufTy).Contents (Elt F)) =>
        concatenate Cert.KernelIdeal.S16384x1x2 2 [⟨Cert.KernelIdeal.S16384x1x1, a⟩, ⟨Cert.KernelIdeal.S16384x1x1, b⟩]
          Cert.KernelIdeal.Facts₀.concatenates_S16384x1x1_S16384x1x1_S16384x1x2_d2) = cat
    after_results_simp
    simp only [hP]
    subst hcat
    rfl
  · after_results_simp
    simp only [hP]
    try rfl
  · after_results_simp
    exact hP

set_option maxRecDepth 8192 in
set_option maxHeartbeats 2000000 in
/-- Level 2 (depth 1, two nodes). -/
theorem level2 (VK : ValK) (VR : ValR)
    (hP : VK (Proc.devRef .tc Cert.KernelIdeal.main_v6) = VR (Proc.devRef .tc Cert.ReferenceIdeal.main_v9))
    (hpr : VK (Proc.devRef .tc Cert.KernelIdeal.main_v28) = VR (Proc.devRef .tc Cert.ReferenceIdeal.main_v31))
    (hrg : VK (Proc.devRef .tc Cert.KernelIdeal.main_v20) = VR (Proc.devRef .tc Cert.ReferenceIdeal.main_v23)) :
    after (((List.drop 32 opsK)).take 28) VK (Proc.devRef .tc Cert.KernelIdeal.main_v49)
        = after (((List.drop 43 opsR)).take 28) VR (Proc.devRef .tc Cert.ReferenceIdeal.main_v52)
    ∧ after (((List.drop 32 opsK)).take 28) VK (Proc.devRef .tc Cert.KernelIdeal.main_v41)
        = after (((List.drop 43 opsR)).take 28) VR (Proc.devRef .tc Cert.ReferenceIdeal.main_v44)
    ∧ after (((List.drop 32 opsK)).take 28) VK (Proc.devRef .tc Cert.KernelIdeal.main_v6)
        = after (((List.drop 43 opsR)).take 28) VR (Proc.devRef .tc Cert.ReferenceIdeal.main_v9) := by
  simp only [Cert.KernelIdeal.Gen.hostOps1, Cert.ReferenceIdeal.Value.ops, Cert.ReferenceIdeal.Value.ops_part0,
    Cert.ReferenceIdeal.Value.ops_part1, Cert.ReferenceIdeal.Value.ops_part2, Cert.ReferenceIdeal.Value.ops_part3,
    Cert.ReferenceIdeal.Value.ops_part4, List.cons_append, List.nil_append, List.drop_succ_cons, List.drop_zero,
    List.take_succ_cons, List.take_zero]
  refine ⟨?_, ?_, ?_⟩
  · generalize hcat : (fun (a b : (⟨Cert.KernelIdeal.S16384x2x1, .f32⟩ : BufTy).Contents (Elt F)) =>
        concatenate Cert.KernelIdeal.S16384x2x2 2 [⟨Cert.KernelIdeal.S16384x2x1, a⟩, ⟨Cert.KernelIdeal.S16384x2x1, b⟩]
          Cert.KernelIdeal.Facts₀.concatenates_S16384x2x1_S16384x2x1_S16384x2x2_d2) = cat
    after_results_simp
    simp only [hP, hpr]
    subst hcat
    rfl
  · after_results_simp
    simp only [hP, hrg]
    try rfl
  · after_results_simp
    exact hP

set_option maxRecDepth 8192 in
set_option maxHeartbeats 2000000 in
/-- Level 3 (depth 2, four nodes). -/
theorem level3 (VK : ValK) (VR : ValR)
    (hP : VK (Proc.devRef .tc Cert.KernelIdeal.main_v6) = VR (Proc.devRef .tc Cert.ReferenceIdeal.main_v9))
    (hpr : VK (Proc.devRef .tc Cert.KernelIdeal.main_v49) = VR (Proc.devRef .tc Cert.ReferenceIdeal.main_v52))
    (hrg : VK (Proc.devRef .tc Cert.KernelIdeal.main_v41) = VR (Proc.devRef .tc Cert.ReferenceIdeal.main_v44)) :
    after (((List.drop 60 opsK)).take 28) VK (Proc.devRef .tc Cert.KernelIdeal.main_v70)
        = after (((List.drop 71 opsR)).take 28) VR (Proc.devRef .tc Cert.ReferenceIdeal.main_v73)
    ∧ after (((List.drop 60 opsK)).take 28) VK (Proc.devRef .tc Cert.KernelIdeal.main_v62)
        = after (((List.drop 71 opsR)).take 28) VR (Proc.devRef .tc Cert.ReferenceIdeal.main_v65)
    ∧ after (((List.drop 60 opsK)).take 28) VK (Proc.devRef .tc Cert.KernelIdeal.main_v6)
        = after (((List.drop 71 opsR)).take 28) VR (Proc.devRef .tc Cert.ReferenceIdeal.main_v9) := by
  simp only [Cert.KernelIdeal.Gen.hostOps1, Cert.ReferenceIdeal.Value.ops, Cert.ReferenceIdeal.Value.ops_part0,
    Cert.ReferenceIdeal.Value.ops_part1, Cert.ReferenceIdeal.Value.ops_part2, Cert.ReferenceIdeal.Value.ops_part3,
    Cert.ReferenceIdeal.Value.ops_part4, List.cons_append, List.nil_append, List.drop_succ_cons, List.drop_zero,
    List.take_succ_cons, List.take_zero]
  refine ⟨?_, ?_, ?_⟩
  · generalize hcat : (fun (a b : (⟨Cert.KernelIdeal.S16384x4x1, .f32⟩ : BufTy).Contents (Elt F)) =>
        concatenate Cert.KernelIdeal.S16384x4x2 2 [⟨Cert.KernelIdeal.S16384x4x1, a⟩, ⟨Cert.KernelIdeal.S16384x4x1, b⟩]
          Cert.KernelIdeal.Facts₀.concatenates_S16384x4x1_S16384x4x1_S16384x4x2_d2) = cat
    after_results_simp
    simp only [hP, hpr]
    subst hcat
    rfl
  · after_results_simp
    simp only [hP, hrg]
    try rfl
  · after_results_simp
    exact hP

set_option maxRecDepth 8192 in
set_option maxHeartbeats 2000000 in
/-- Level 4 (depth 3, eight nodes). -/
theorem level4 (VK : ValK) (VR : ValR)
    (hP : VK (Proc.devRef .tc Cert.KernelIdeal.main_v6) = VR (Proc.devRef .tc Cert.ReferenceIdeal.main_v9))
    (hpr : VK (Proc.devRef .tc Cert.KernelIdeal.main_v70) = VR (Proc.devRef .tc Cert.ReferenceIdeal.main_v73))
    (hrg : VK (Proc.devRef .tc Cert.KernelIdeal.main_v62) = VR (Proc.devRef .tc Cert.ReferenceIdeal.main_v65)) :
    after (((List.drop 88 opsK)).take 28) VK (Proc.devRef .tc Cert.KernelIdeal.main_v91)
        = after (((List.drop 99 opsR)).take 28) VR (Proc.devRef .tc Cert.ReferenceIdeal.main_v94)
    ∧ after (((List.drop 88 opsK)).take 28) VK (Proc.devRef .tc Cert.KernelIdeal.main_v83)
        = after (((List.drop 99 opsR)).take 28) VR (Proc.devRef .tc Cert.ReferenceIdeal.main_v86)
    ∧ after (((List.drop 88 opsK)).take 28) VK (Proc.devRef .tc Cert.KernelIdeal.main_v6)
        = after (((List.drop 99 opsR)).take 28) VR (Proc.devRef .tc Cert.ReferenceIdeal.main_v9) := by
  simp only [Cert.KernelIdeal.Gen.hostOps1, Cert.ReferenceIdeal.Value.ops, Cert.ReferenceIdeal.Value.ops_part0,
    Cert.ReferenceIdeal.Value.ops_part1, Cert.ReferenceIdeal.Value.ops_part2, Cert.ReferenceIdeal.Value.ops_part3,
    Cert.ReferenceIdeal.Value.ops_part4, List.cons_append, List.nil_append, List.drop_succ_cons, List.drop_zero,
    List.take_succ_cons, List.take_zero]
  refine ⟨?_, ?_, ?_⟩
  · generalize hcat : (fun (a b : (⟨Cert.KernelIdeal.S16384x8x1, .f32⟩ : BufTy).Contents (Elt F)) =>
        concatenate Cert.KernelIdeal.S16384x8x2 2 [⟨Cert.KernelIdeal.S16384x8x1, a⟩, ⟨Cert.KernelIdeal.S16384x8x1, b⟩]
          Cert.KernelIdeal.Facts₀.concatenates_S16384x8x1_S16384x8x1_S16384x8x2_d2) = cat
    after_results_simp
    simp only [hP, hpr]
    subst hcat
    rfl
  · after_results_simp
    simp only [hP, hrg]
    try rfl
  · after_results_simp
    exact hP

set_option maxRecDepth 8192 in
set_option maxHeartbeats 2000000 in
/-- Level 5 (depth 4, sixteen nodes). -/
theorem level5 (VK : ValK) (VR : ValR)
    (hP : VK (Proc.devRef .tc Cert.KernelIdeal.main_v6) = VR (Proc.devRef .tc Cert.ReferenceIdeal.main_v9))
    (hpr : VK (Proc.devRef .tc Cert.KernelIdeal.main_v91) = VR (Proc.devRef .tc Cert.ReferenceIdeal.main_v94))
    (hrg : VK (Proc.devRef .tc Cert.KernelIdeal.main_v83) = VR (Proc.devRef .tc Cert.ReferenceIdeal.main_v86)) :
    after (((List.drop 116 opsK)).take 28) VK (Proc.devRef .tc Cert.KernelIdeal.main_v112)
        = after (((List.drop 127 opsR)).take 28) VR (Proc.devRef .tc Cert.ReferenceIdeal.main_v115)
    ∧ after (((List.drop 116 opsK)).take 28) VK (Proc.devRef .tc Cert.KernelIdeal.main_v104)
        = after (((List.drop 127 opsR)).take 28) VR (Proc.devRef .tc Cert.ReferenceIdeal.main_v107)
    ∧ after (((List.drop 116 opsK)).take 28) VK (Proc.devRef .tc Cert.KernelIdeal.main_v6)
        = after (((List.drop 127 opsR)).take 28) VR (Proc.devRef .tc Cert.ReferenceIdeal.main_v9) := by
  simp only [Cert.KernelIdeal.Gen.hostOps1, Cert.ReferenceIdeal.Value.ops, Cert.ReferenceIdeal.Value.ops_part0,
    Cert.ReferenceIdeal.Value.ops_part1, Cert.ReferenceIdeal.Value.ops_part2, Cert.ReferenceIdeal.Value.ops_part3,
    Cert.ReferenceIdeal.Value.ops_part4, List.cons_append, List.nil_append, List.drop_succ_cons, List.drop_zero,
    List.take_succ_cons, List.take_zero]
  refine ⟨?_, ?_, ?_⟩
  · generalize hcat : (fun (a b : (⟨Cert.KernelIdeal.S16384x16x1, .f32⟩ : BufTy).Contents (Elt F)) =>
        concatenate Cert.KernelIdeal.S16384x16x2 2 [⟨Cert.KernelIdeal.S16384x16x1, a⟩, ⟨Cert.KernelIdeal.S16384x16x1, b⟩]
          Cert.KernelIdeal.Facts₀.concatenates_S16384x16x1_S16384x16x1_S16384x16x2_d2) = cat
    after_results_simp
    simp only [hP, hpr]
    subst hcat
    rfl
  · after_results_simp
    simp only [hP, hrg]
    try rfl
  · after_results_simp
    exact hP

end Cert.Tree

end
-- ==== Proof.TreeLevelsHigh.lean ====
/-
  The soft decision tree's host recursion, one level at a time, in both programs at once (levels 6 to 10).

  The same simulation step as for the lower levels: at depth d the two programs run the same 28 operations — the
  depth's 2^d columns of the splitter probabilities P, the regulariser's term for that depth, and the path
  probabilities split to the 2^(d+1) children — on differently numbered buffers, so memories that agree on P, on the
  path probabilities of depth d and on the regulariser so far agree, after the level, on P, on the path probabilities
  of depth d+1 and on the new regulariser. The last level leaves the leaf probabilities [16384, 1024] and the whole
  regulariser.
-/
import proofs.«135782_j18683107738106_1_alg».proof.Proof.Gen.KernelIdeal.Launch
import proofs.«135782_j18683107738106_1_alg».proof.Proof.Gen.ReferenceIdeal.Run
import Idealize.ShloMosaic.Lib.StableHlo.Run
import Idealize.ShloMosaic.Lib.Pipeline.Frame

noncomputable section

namespace Cert.Tree

open Idealize.ShloMosaic Idealize.ShloMosaic.StableHlo

variable {F : FTy → Type} [FloatOps F]

/-- A valuation of the kernel program's buffers, and one of the reference's. -/
local notation "ValK" => Valuation Cert.KernelIdeal.τ Cert.KernelIdeal.sig (Elt F)
local notation "ValR" => Valuation Cert.ReferenceIdeal.τ Cert.ReferenceIdeal.sig (Elt F)
/-- The kernel's host operations between its two pallas_calls, and the reference's @main, as lists. -/
local notation "opsK" => (Cert.KernelIdeal.Gen.hostOps1 (F := F))
local notation "opsR" => (Cert.ReferenceIdeal.Value.ops (F := F))

set_option maxRecDepth 8192 in
set_option maxHeartbeats 2000000 in
/-- Level 6 (depth 5, 32 nodes). -/
theorem level6 (VK : ValK) (VR : ValR)
    (hP : VK (Proc.devRef .tc Cert.KernelIdeal.main_v6) = VR (Proc.devRef .tc Cert.ReferenceIdeal.main_v9))
    (hpr : VK (Proc.devRef .tc Cert.KernelIdeal.main_v112) = VR (Proc.devRef .tc Cert.ReferenceIdeal.main_v115))
    (hrg : VK (Proc.devRef .tc Cert.KernelIdeal.main_v104) = VR (Proc.devRef .tc Cert.ReferenceIdeal.main_v107)) :
    after (((List.drop 144 opsK)).take 28) VK (Proc.devRef .tc Cert.KernelIdeal.main_v133)
        = after (((List.drop 155 opsR)).take 28) VR (Proc.devRef .tc Cert.ReferenceIdeal.main_v136)
    ∧ after (((List.drop 144 opsK)).take 28) VK (Proc.devRef .tc Cert.KernelIdeal.main_v125)
        = after (((List.drop 155 opsR)).take 28) VR (Proc.devRef .tc Cert.ReferenceIdeal.main_v128)
    ∧ after (((List.drop 144 opsK)).take 28) VK (Proc.devRef .tc Cert.KernelIdeal.main_v6)
        = after (((List.drop 155 opsR)).take 28) VR (Proc.devRef .tc Cert.ReferenceIdeal.main_v9) := by
  simp only [Cert.KernelIdeal.Gen.hostOps1, Cert.ReferenceIdeal.Value.ops, Cert.ReferenceIdeal.Value.ops_part0,
    Cert.ReferenceIdeal.Value.ops_part1, Cert.ReferenceIdeal.Value.ops_part2, Cert.ReferenceIdeal.Value.ops_part3,
    Cert.ReferenceIdeal.Value.ops_part4, List.cons_append, List.nil_append, List.drop_succ_cons, List.drop_zero,
    List.take_succ_cons, List.take_zero]
  refine ⟨?_, ?_, ?_⟩
  · generalize hcat : (fun (a b : (⟨Cert.KernelIdeal.S16384x32x1, .f32⟩ : BufTy).Contents (Elt F)) =>
        concatenate Cert.KernelIdeal.S16384x32x2 2 [⟨Cert.KernelIdeal.S16384x32x1, a⟩, ⟨Cert.KernelIdeal.S16384x32x1, b⟩]
          Cert.KernelIdeal.Facts₀.concatenates_S16384x32x1_S16384x32x1_S16384x32x2_d2) = cat
    after_results_simp
    simp only [hP, hpr]
    subst hcat
    rfl
  · after_results_simp
    simp only [hP, hrg]
    try rfl
  · after_results_simp
    exact hP

set_option maxRecDepth 8192 in
set_option maxHeartbeats 2000000 in
/-- Level 7 (depth 6, 64 nodes). -/
theorem level7 (VK : ValK) (VR : ValR)
    (hP : VK (Proc.devRef .tc Cert.KernelIdeal.main_v6) = VR (Proc.devRef .tc Cert.ReferenceIdeal.main_v9))
    (hpr : VK (Proc.devRef .tc Cert.KernelIdeal.main_v133) = VR (Proc.devRef .tc Cert.ReferenceIdeal.main_v136))
    (hrg : VK (Proc.devRef .tc Cert.KernelIdeal.main_v125) = VR (Proc.devRef .tc Cert.ReferenceIdeal.main_v128)) :
    after (((List.drop 172 opsK)).take 28) VK (Proc.devRef .tc Cert.KernelIdeal.main_v154)
        = after (((List.drop 183 opsR)).take 28) VR (Proc.devRef .tc Cert.ReferenceIdeal.main_v157)
    ∧ after (((List.drop 172 opsK)).take 28) VK (Proc.devRef .tc Cert.KernelIdeal.main_v146)
        = after (((List.drop 183 opsR)).take 28) VR (Proc.devRef .tc Cert.ReferenceIdeal.main_v149)
    ∧ after (((List.drop 172 opsK)).take 28) VK (Proc.devRef .tc Cert.KernelIdeal.main_v6)
        = after (((List.drop 183 opsR)).take 28) VR (Proc.devRef .tc Cert.ReferenceIdeal.main_v9) := by
  simp only [Cert.KernelIdeal.Gen.hostOps1, Cert.ReferenceIdeal.Value.ops, Cert.ReferenceIdeal.Value.ops_part0,
    Cert.ReferenceIdeal.Value.ops_part1, Cert.ReferenceIdeal.Value.ops_part2, Cert.ReferenceIdeal.Value.ops_part3,
    Cert.ReferenceIdeal.Value.ops_part4, List.cons_append, List.nil_append, List.drop_succ_cons, List.drop_zero,
    List.take_succ_cons, List.take_zero]
  refine ⟨?_, ?_, ?_⟩
  · generalize hcat : (fun (a b : (⟨Cert.KernelIdeal.S16384x64x1, .f32⟩ : BufTy).Contents (Elt F)) =>
        concatenate Cert.KernelIdeal.S16384x64x2 2 [⟨Cert.KernelIdeal.S16384x64x1, a⟩, ⟨Cert.KernelIdeal.S16384x64x1, b⟩]
          Cert.KernelIdeal.Facts₀.concatenates_S16384x64x1_S16384x64x1_S16384x64x2_d2) = cat
    after_results_simp
    simp only [hP, hpr]
    subst hcat
    rfl
  · after_results_simp
    simp only [hP, hrg]
    try rfl
  · after_results_simp
    exact hP

set_option maxRecDepth 8192 in
set_option maxHeartbeats 2000000 in
/-- Level 8 (depth 7, 128 nodes). -/
theorem level8 (VK : ValK) (VR : ValR)
    (hP : VK (Proc.devRef .tc Cert.KernelIdeal.main_v6) = VR (Proc.devRef .tc Cert.ReferenceIdeal.main_v9))
    (hpr : VK (Proc.devRef .tc Cert.KernelIdeal.main_v154) = VR (Proc.devRef .tc Cert.ReferenceIdeal.main_v157))
    (hrg : VK (Proc.devRef .tc Cert.KernelIdeal.main_v146) = VR (Proc.devRef .tc Cert.ReferenceIdeal.main_v149)) :
    after (((List.drop 200 opsK)).take 28) VK (Proc.devRef .tc Cert.KernelIdeal.main_v175)
        = after (((List.drop 211 opsR)).take 28) VR (Proc.devRef .tc Cert.ReferenceIdeal.main_v178)
    ∧ after (((List.drop 200 opsK)).take 28) VK (Proc.devRef .tc Cert.KernelIdeal.main_v167)
        = after (((List.drop 211 opsR)).take 28) VR (Proc.devRef .tc Cert.ReferenceIdeal.main_v170)
    ∧ after (((List.drop 200 opsK)).take 28) VK (Proc.devRef .tc Cert.KernelIdeal.main_v6)
        = after (((List.drop 211 opsR)).take 28) VR (Proc.devRef .tc Cert.ReferenceIdeal.main_v9) := by
  simp only [Cert.KernelIdeal.Gen.hostOps1, Cert.ReferenceIdeal.Value.ops, Cert.ReferenceIdeal.Value.ops_part0,
    Cert.ReferenceIdeal.Value.ops_part1, Cert.ReferenceIdeal.Value.ops_part2, Cert.ReferenceIdeal.Value.ops_part3,
    Cert.ReferenceIdeal.Value.ops_part4, List.cons_append, List.nil_append, List.drop_succ_cons, List.drop_zero,
    List.take_succ_cons, List.take_zero]
  refine ⟨?_, ?_, ?_⟩
  · generalize hcat : (fun (a b : (⟨Cert.KernelIdeal.S16384x128x1, .f32⟩ : BufTy).Contents (Elt F)) =>
        concatenate Cert.KernelIdeal.S16384x128x2 2 [⟨Cert.KernelIdeal.S16384x128x1, a⟩, ⟨Cert.KernelIdeal.S16384x128x1, b⟩]
          Cert.KernelIdeal.Facts₀.concatenates_S16384x128x1_S16384x128x1_S16384x128x2_d2) = cat
    after_results_simp
    simp only [hP, hpr]
    subst hcat
    rfl
  · after_results_simp
    simp only [hP, hrg]
    try rfl
  · after_results_simp
    exact hP

set_option maxRecDepth 8192 in
set_option maxHeartbeats 2000000 in
/-- Level 9 (depth 8, 256 nodes). -/
theorem level9 (VK : ValK) (VR : ValR)
    (hP : VK (Proc.devRef .tc Cert.KernelIdeal.main_v6) = VR (Proc.devRef .tc Cert.ReferenceIdeal.main_v9))
    (hpr : VK (Proc.devRef .tc Cert.KernelIdeal.main_v175) = VR (Proc.devRef .tc Cert.ReferenceIdeal.main_v178))
    (hrg : VK (Proc.devRef .tc Cert.KernelIdeal.main_v167) = VR (Proc.devRef .tc Cert.ReferenceIdeal.main_v170)) :
    after (((List.drop 228 opsK)).take 28) VK (Proc.devRef .tc Cert.KernelIdeal.main_v196)
        = after (((List.drop 239 opsR)).take 28) VR (Proc.devRef .tc Cert.ReferenceIdeal.main_v199)
    ∧ after (((List.drop 228 opsK)).take 28) VK (Proc.devRef .tc Cert.KernelIdeal.main_v188)
        = after (((List.drop 239 opsR)).take 28) VR (Proc.devRef .tc Cert.ReferenceIdeal.main_v191)
    ∧ after (((List.drop 228 opsK)).take 28) VK (Proc.devRef .tc Cert.KernelIdeal.main_v6)
        = after (((List.drop 239 opsR)).take 28) VR (Proc.devRef .tc Cert.ReferenceIdeal.main_v9) := by
  simp only [Cert.KernelIdeal.Gen.hostOps1, Cert.ReferenceIdeal.Value.ops, Cert.ReferenceIdeal.Value.ops_part0,
    Cert.ReferenceIdeal.Value.ops_part1, Cert.ReferenceIdeal.Value.ops_part2, Cert.ReferenceIdeal.Value.ops_part3,
    Cert.ReferenceIdeal.Value.ops_part4, List.cons_append, List.nil_append, List.drop_succ_cons, List.drop_zero,
    List.take_succ_cons, List.take_zero]
  refine ⟨?_, ?_, ?_⟩
  · generalize hcat : (fun (a b : (⟨Cert.KernelIdeal.S16384x256x1, .f32⟩ : BufTy).Contents (Elt F)) =>
        concatenate Cert.KernelIdeal.S16384x256x2 2 [⟨Cert.KernelIdeal.S16384x256x1, a⟩, ⟨Cert.KernelIdeal.S16384x256x1, b⟩]
          Cert.KernelIdeal.Facts₀.concatenates_S16384x256x1_S16384x256x1_S16384x256x2_d2) = cat
    after_results_simp
    simp only [hP, hpr]
    subst hcat
    rfl
  · after_results_simp
    simp only [hP, hrg]
    try rfl
  · after_results_simp
    exact hP

set_option maxRecDepth 8192 in
set_option maxHeartbeats 2000000 in
/-- Level 10 (depth 9, 512 nodes): the leaf probabilities and the whole regulariser. -/
theorem level10 (VK : ValK) (VR : ValR)
    (hP : VK (Proc.devRef .tc Cert.KernelIdeal.main_v6) = VR (Proc.devRef .tc Cert.ReferenceIdeal.main_v9))
    (hpr : VK (Proc.devRef .tc Cert.KernelIdeal.main_v196) = VR (Proc.devRef .tc Cert.ReferenceIdeal.main_v199))
    (hrg : VK (Proc.devRef .tc Cert.KernelIdeal.main_v188) = VR (Proc.devRef .tc Cert.ReferenceIdeal.main_v191)) :
    after (((List.drop 256 opsK)).take 28) VK (Proc.devRef .tc Cert.KernelIdeal.main_v217)
        = after (((List.drop 267 opsR)).take 28) VR (Proc.devRef .tc Cert.ReferenceIdeal.main_v220)
    ∧ after (((List.drop 256 opsK)).take 28) VK (Proc.devRef .tc Cert.KernelIdeal.main_v209)
        = after (((List.drop 267 opsR)).take 28) VR (Proc.devRef .tc Cert.ReferenceIdeal.main_v212)
    ∧ after (((List.drop 256 opsK)).take 28) VK (Proc.devRef .tc Cert.KernelIdeal.main_v6)
        = after (((List.drop 267 opsR)).take 28) VR (Proc.devRef .tc Cert.ReferenceIdeal.main_v9) := by
  simp only [Cert.KernelIdeal.Gen.hostOps1, Cert.ReferenceIdeal.Value.ops, Cert.ReferenceIdeal.Value.ops_part0,
    Cert.ReferenceIdeal.Value.ops_part1, Cert.ReferenceIdeal.Value.ops_part2, Cert.ReferenceIdeal.Value.ops_part3,
    Cert.ReferenceIdeal.Value.ops_part4, List.cons_append, List.nil_append, List.drop_succ_cons, List.drop_zero,
    List.take_succ_cons, List.take_zero]
  refine ⟨?_, ?_, ?_⟩
  · generalize hcat : (fun (a b : (⟨Cert.KernelIdeal.S16384x512x1, .f32⟩ : BufTy).Contents (Elt F)) =>
        concatenate Cert.KernelIdeal.S16384x512x2 2 [⟨Cert.KernelIdeal.S16384x512x1, a⟩, ⟨Cert.KernelIdeal.S16384x512x1, b⟩]
          Cert.KernelIdeal.Facts₀.concatenates_S16384x512x1_S16384x512x1_S16384x512x2_d2) = cat
    after_results_simp
    simp only [hP, hpr]
    subst hcat
    rfl
  · after_results_simp
    simp only [hP, hrg]
    try rfl
  · after_results_simp
    exact hP

end Cert.Tree

end
-- ==== Proof.TreeWalk.lean ====
/-
  The walk through the tree's ten levels, in both programs at once.

  After the splitter probabilities P the kernel's host operations and the reference's @main run the same recursion, level
  by level (the two sibling modules prove one simulation step per level). Here the steps are chained: the kernel's
  list of operations after its first one (the slice that drops the padding column) and the reference's list after its
  first twelve (which compute P) are cut, from the front, into the levels' stretches — a list dropped at a is its next
  n operations followed by the list dropped at a + n, and running a concatenation is running its parts in order —, each
  step's conclusion is the next step's hypothesis, and at the end the kernel's list is exhausted while the reference's
  has one operation left, the product with the leaf values, which writes neither the leaf probabilities nor the
  regulariser. So memories that agree on P end agreeing on the leaf probabilities and on the regulariser.
-/
import proofs.«135782_j18683107738106_1_alg».proof.Proof.TreeLevelsLow
import proofs.«135782_j18683107738106_1_alg».proof.Proof.TreeLevelsHigh
import proofs.«135782_j18683107738106_1_alg».proof.Proof.GlueEnds

noncomputable section

namespace Cert.Tree

open Idealize.ShloMosaic Idealize.ShloMosaic.StableHlo

/-- A list dropped at `a` runs as its next `n` operations, then the list dropped at `a + n`. -/
theorem after_split {τ : Topo} {sig : RefSig} {Val : EltTy → Type} (l : List (HloOp τ sig Val)) (a n b : Nat) (h : a + n = b)
    (V : Valuation τ sig Val) : after (l.drop a) V = after (l.drop b) (after ((l.drop a).take n) V) := by
  subst h
  rw [← StableHlo.after_append, ← List.drop_drop, List.take_append_drop]

variable {F : FTy → Type} [FloatOps F]

local notation "ValK" => Valuation Cert.KernelIdeal.τ Cert.KernelIdeal.sig (Elt F)
local notation "ValR" => Valuation Cert.ReferenceIdeal.τ Cert.ReferenceIdeal.sig (Elt F)
local notation "opsK" => (Cert.KernelIdeal.Gen.hostOps1 (F := F))
local notation "opsR" => (Cert.ReferenceIdeal.Value.ops (F := F))

/-- The kernel's stretch between its two pallas_calls has 284 operations: after the tenth level nothing is left. -/
theorem opsK_length : (Cert.KernelIdeal.Gen.hostOps1 (F := F)).length = 284 := rfl
theorem opsK_ended : List.drop 284 opsK = [] := List.drop_of_length_le (le_of_eq opsK_length)

/-- From memories that agree at depth 9 (P, the path probabilities of the 512 nodes, the regulariser so far): the
    last level, after which the kernel's list is exhausted and the reference's last operation touches neither result. -/
theorem from9 (VK : ValK) (VR : ValR)
    (hP : VK (Proc.devRef .tc Cert.KernelIdeal.main_v6) = VR (Proc.devRef .tc Cert.ReferenceIdeal.main_v9))
    (hpr : VK (Proc.devRef .tc Cert.KernelIdeal.main_v196) = VR (Proc.devRef .tc Cert.ReferenceIdeal.main_v199))
    (hrg : VK (Proc.devRef .tc Cert.KernelIdeal.main_v188) = VR (Proc.devRef .tc Cert.ReferenceIdeal.main_v191)) :
    after (List.drop 256 opsK) VK (Proc.devRef .tc Cert.KernelIdeal.main_v217)
        = after (List.drop 267 opsR) VR (Proc.devRef .tc Cert.ReferenceIdeal.main_v220)
    ∧ after (List.drop 256 opsK) VK (Proc.devRef .tc Cert.KernelIdeal.main_v209)
        = after (List.drop 267 opsR) VR (Proc.devRef .tc Cert.ReferenceIdeal.main_v212) := by
  rw [after_split opsK 256 28 284 rfl, after_split opsR 267 28 295 rfl, opsK_ended, after_nil,
    Cert.Ends.ref_last_probs, Cert.Ends.ref_last_reg]
  obtain ⟨p, r, -⟩ := level10 VK VR hP hpr hrg
  exact ⟨p, r⟩

theorem from8 (VK : ValK) (VR : ValR)
    (hP : VK (Proc.devRef .tc Cert.KernelIdeal.main_v6) = VR (Proc.devRef .tc Cert.ReferenceIdeal.main_v9))
    (hpr : VK (Proc.devRef .tc Cert.KernelIdeal.main_v175) = VR (Proc.devRef .tc Cert.ReferenceIdeal.main_v178))
    (hrg : VK (Proc.devRef .tc Cert.KernelIdeal.main_v167) = VR (Proc.devRef .tc Cert.ReferenceIdeal.main_v170)) :
    after (List.drop 228 opsK) VK (Proc.devRef .tc Cert.KernelIdeal.main_v217)
        = after (List.drop 239 opsR) VR (Proc.devRef .tc Cert.ReferenceIdeal.main_v220)
    ∧ after (List.drop 228 opsK) VK (Proc.devRef .tc Cert.KernelIdeal.main_v209)
        = after (List.drop 239 opsR) VR (Proc.devRef .tc Cert.ReferenceIdeal.main_v212) := by
  rw [after_split opsK 228 28 256 rfl, after_split opsR 239 28 267 rfl]
  obtain ⟨p, r, P'⟩ := level9 VK VR hP hpr hrg
  exact from9 _ _ P' p r

theorem from7 (VK : ValK) (VR : ValR)
    (hP : VK (Proc.devRef .tc Cert.KernelIdeal.main_v6) = VR (Proc.devRef .tc Cert.ReferenceIdeal.main_v9))
    (hpr : VK (Proc.devRef .tc Cert.KernelIdeal.main_v154) = VR (Proc.devRef .tc Cert.ReferenceIdeal.main_v157))
    (hrg : VK (Proc.devRef .tc Cert.KernelIdeal.main_v146) = VR (Proc.devRef .tc Cert.ReferenceIdeal.main_v149)) :
    after (List.drop 200 opsK) VK (Proc.devRef .tc Cert.KernelIdeal.main_v217)
        = after (List.drop 211 opsR) VR (Proc.devRef .tc Cert.ReferenceIdeal.main_v220)
    ∧ after (List.drop 200 opsK) VK (Proc.devRef .tc Cert.KernelIdeal.main_v209)
        = after (List.drop 211 opsR) VR (Proc.devRef .tc Cert.ReferenceIdeal.main_v212) := by
  rw [after_split opsK 200 28 228 rfl, after_split opsR 211 28 239 rfl]
  obtain ⟨p, r, P'⟩ := level8 VK VR hP hpr hrg
  exact from8 _ _ P' p r

theorem from6 (VK : ValK) (VR : ValR)
    (hP : VK (Proc.devRef .tc Cert.KernelIdeal.main_v6) = VR (Proc.devRef .tc Cert.ReferenceIdeal.main_v9))
    (hpr : VK (Proc.devRef .tc Cert.KernelIdeal.main_v133) = VR (Proc.devRef .tc Cert.ReferenceIdeal.main_v136))
    (hrg : VK (Proc.devRef .tc Cert.KernelIdeal.main_v125) = VR (Proc.devRef .tc Cert.ReferenceIdeal.main_v128)) :
    after (List.drop 172 opsK) VK (Proc.devRef .tc Cert.KernelIdeal.main_v217)
        = after (List.drop 183 opsR) VR (Proc.devRef .tc Cert.ReferenceIdeal.main_v220)
    ∧ after (List.drop 172 opsK) VK (Proc.devRef .tc Cert.KernelIdeal.main_v209)
        = after (List.drop 183 opsR) VR (Proc.devRef .tc Cert.ReferenceIdeal.main_v212) := by
  rw [after_split opsK 172 28 200 rfl, after_split opsR 183 28 211 rfl]
  obtain ⟨p, r, P'⟩ := level7 VK VR hP hpr hrg
  exact from7 _ _ P' p r

theorem from5 (VK : ValK) (VR : ValR)
    (hP : VK (Proc.devRef .tc Cert.KernelIdeal.main_v6) = VR (Proc.devRef .tc Cert.ReferenceIdeal.main_v9))
    (hpr : VK (Proc.devRef .tc Cert.KernelIdeal.main_v112) = VR (Proc.devRef .tc Cert.ReferenceIdeal.main_v115))
    (hrg : VK (Proc.devRef .tc Cert.KernelIdeal.main_v104) = VR (Proc.devRef .tc Cert.ReferenceIdeal.main_v107)) :
    after (List.drop 144 opsK) VK (Proc.devRef .tc Cert.KernelIdeal.main_v217)
        = after (List.drop 155 opsR) VR (Proc.devRef .tc Cert.ReferenceIdeal.main_v220)
    ∧ after (List.drop 144 opsK) VK (Proc.devRef .tc Cert.KernelIdeal.main_v209)
        = after (List.drop 155 opsR) VR (Proc.devRef .tc Cert.ReferenceIdeal.main_v212) := by
  rw [after_split opsK 144 28 172 rfl, after_split opsR 155 28 183 rfl]
  obtain ⟨p, r, P'⟩ := level6 VK VR hP hpr hrg
  exact from6 _ _ P' p r

theorem from4 (VK : ValK) (VR : ValR)
    (hP : VK (Proc.devRef .tc Cert.KernelIdeal.main_v6) = VR (Proc.devRef .tc Cert.ReferenceIdeal.main_v9))
    (hpr : VK (Proc.devRef .tc Cert.KernelIdeal.main_v91) = VR (Proc.devRef .tc Cert.ReferenceIdeal.main_v94))
    (hrg : VK (Proc.devRef .tc Cert.KernelIdeal.main_v83) = VR (Proc.devRef .tc Cert.ReferenceIdeal.main_v86)) :
    after (List.drop 116 opsK) VK (Proc.devRef .tc Cert.KernelIdeal.main_v217)
        = after (List.drop 127 opsR) VR (Proc.devRef .tc Cert.ReferenceIdeal.main_v220)
    ∧ after (List.drop 116 opsK) VK (Proc.devRef .tc Cert.KernelIdeal.main_v209)
        = after (List.drop 127 opsR) VR (Proc.devRef .tc Cert.ReferenceIdeal.main_v212) := by
  rw [after_split opsK 116 28 144 rfl, after_split opsR 127 28 155 rfl]
  obtain ⟨p, r, P'⟩ := level5 VK VR hP hpr hrg
  exact from5 _ _ P' p r

theorem from3 (VK : ValK) (VR : ValR)
    (hP : VK (Proc.devRef .tc Cert.KernelIdeal.main_v6) = VR (Proc.devRef .tc Cert.ReferenceIdeal.main_v9))
    (hpr : VK (Proc.devRef .tc Cert.KernelIdeal.main_v70) = VR (Proc.devRef .tc Cert.ReferenceIdeal.main_v73))
    (hrg : VK (Proc.devRef .tc Cert.KernelIdeal.main_v62) = VR (Proc.devRef .tc Cert.ReferenceIdeal.main_v65)) :
    after (List.drop 88 opsK) VK (Proc.devRef .tc Cert.KernelIdeal.main_v217)
        = after (List.drop 99 opsR) VR (Proc.devRef .tc Cert.ReferenceIdeal.main_v220)
    ∧ after (List.drop 88 opsK) VK (Proc.devRef .tc Cert.KernelIdeal.main_v209)
        = after (List.drop 99 opsR) VR (Proc.devRef .tc Cert.ReferenceIdeal.main_v212) := by
  rw [after_split opsK 88 28 116 rfl, after_split opsR 99 28 127 rfl]
  obtain ⟨p, r, P'⟩ := level4 VK VR hP hpr hrg
  exact from4 _ _ P' p r

theorem from2 (VK : ValK) (VR : ValR)
    (hP : VK (Proc.devRef .tc Cert.KernelIdeal.main_v6) = VR (Proc.devRef .tc Cert.ReferenceIdeal.main_v9))
    (hpr : VK (Proc.devRef .tc Cert.KernelIdeal.main_v49) = VR (Proc.devRef .tc Cert.ReferenceIdeal.main_v52))
    (hrg : VK (Proc.devRef .tc Cert.KernelIdeal.main_v41) = VR (Proc.devRef .tc Cert.ReferenceIdeal.main_v44)) :
    after (List.drop 60 opsK) VK (Proc.devRef .tc Cert.KernelIdeal.main_v217)
        = after (List.drop 71 opsR) VR (Proc.devRef .tc Cert.ReferenceIdeal.main_v220)
    ∧ after (List.drop 60 opsK) VK (Proc.devRef .tc Cert.KernelIdeal.main_v209)
        = after (List.drop 71 opsR) VR (Proc.devRef .tc Cert.ReferenceIdeal.main_v212) := by
  rw [after_split opsK 60 28 88 rfl, after_split opsR 71 28 99 rfl]
  obtain ⟨p, r, P'⟩ := level3 VK VR hP hpr hrg
  exact from3 _ _ P' p r

theorem from1 (VK : ValK) (VR : ValR)
    (hP : VK (Proc.devRef .tc Cert.KernelIdeal.main_v6) = VR (Proc.devRef .tc Cert.ReferenceIdeal.main_v9))
    (hpr : VK (Proc.devRef .tc Cert.KernelIdeal.main_v28) = VR (Proc.devRef .tc Cert.ReferenceIdeal.main_v31))
    (hrg : VK (Proc.devRef .tc Cert.KernelIdeal.main_v20) = VR (Proc.devRef .tc Cert.ReferenceIdeal.main_v23)) :
    after (List.drop 32 opsK) VK (Proc.devRef .tc Cert.KernelIdeal.main_v217)
        = after (List.drop 43 opsR) VR (Proc.devRef .tc Cert.ReferenceIdeal.main_v220)
    ∧ after (List.drop 32 opsK) VK (Proc.devRef .tc Cert.KernelIdeal.main_v209)
        = after (List.drop 43 opsR) VR (Proc.devRef .tc Cert.ReferenceIdeal.main_v212) := by
  rw [after_split opsK 32 28 60 rfl, after_split opsR 43 28 71 rfl]
  obtain ⟨p, r, P'⟩ := level2 VK VR hP hpr hrg
  exact from2 _ _ P' p r

/-- THE WALK: from memories that agree on the splitter probabilities P — the kernel's after its slice, the reference's
    after its first twelve operations — the two programs' remaining host operations leave the same leaf probabilities
    and the same regulariser. -/
theorem walk (VK : ValK) (VR : ValR)
    (hP : VK (Proc.devRef .tc Cert.KernelIdeal.main_v6) = VR (Proc.devRef .tc Cert.ReferenceIdeal.main_v9)) :
    after (List.drop 1 opsK) VK (Proc.devRef .tc Cert.KernelIdeal.main_v217)
        = after (List.drop 12 opsR) VR (Proc.devRef .tc Cert.ReferenceIdeal.main_v220)
    ∧ after (List.drop 1 opsK) VK (Proc.devRef .tc Cert.KernelIdeal.main_v209)
        = after (List.drop 12 opsR) VR (Proc.devRef .tc Cert.ReferenceIdeal.main_v212) := by
  rw [after_split opsK 1 31 32 rfl, after_split opsR 12 31 43 rfl]
  obtain ⟨p, r, P'⟩ := level1 VK VR hP
  exact from1 _ _ P' p r

end Cert.Tree

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.SplitterBlocks.lean ====
/-
  The first region's output array, entry by entry, at the ideal values: after the region's pipeline over its sixteen tiles
  of 1024 rows, the array holds at row `p` and column `q` the logistic of row `p` of `x` times column `q` of the padded
  weights plus the padded bias at `q` — for ANY contents `V` the region finds in its arrays.

  * `probs`: that whole-array function of the three arrays, index by index (`probs_apply`: read at `(p, q)`);
  * `tile_entry`: one entry of what the body stores for a tile, as a sum over the 2048 features (the matrix product into
    the zero accumulator is the plain sum, the narrowing to bf16 the identity, the bias row broadcast over the tile's rows);
  * `tile_eq`: so a tile whose first block is rows `n * 1024 …` of `x`, beside the whole weights and bias row, is the same
    rows of `probs`;
  * `index_facts`, `flushed_eq`: the index maps decided over the grid, and what point `t` writes back is block `t` of `probs`;
  * `mem_tile`, `covered`: row `p` lies in the tile of point `p / 1024`;
  * `arr_eq`, `arr_entry`, `arr_entry_of`: the array after the last point is `probs`, and its entries.
-/
import proofs.«135782_j18683107738106_1_alg».proof.Proof.Gen.KernelIdeal.Frame
import proofs.«135782_j18683107738106_1_alg».proof.Proof.LibMatmulEntry
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Splitter

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The splitter probabilities as one function of the arrays -/

/-- The splitter probabilities as one function of the rows, the padded weights and the padded bias row: at row
    `p` and column `q`, the logistic of the row's product with the column plus the column's bias. -/
def probs (x : FVec Ideal S16384x2048 .f32) (w : FVec Ideal S2048x1024 .bf16) (b : FVec Ideal S1x1024 .f32) :
    FVec Ideal S16384x1024 .f32 := fun i =>
  Ideal.logistic ((∑ k : Fin 2048, x (ix2 (⟨(i 0).val, idx2_lt0 i⟩ : Fin 16384) k) * w (ix2 k (⟨(i 1).val, idx2_lt1 i⟩ : Fin 1024)))
    + b (ix2 (0 : Fin 1) (⟨(i 1).val, idx2_lt1 i⟩ : Fin 1024)))

/-- The same, read at row `p` and column `q`. -/
theorem probs_apply (x : FVec Ideal S16384x2048 .f32) (w : FVec Ideal S2048x1024 .bf16) (b : FVec Ideal S1x1024 .f32)
    (p : Fin 16384) (q : Fin 1024) :
    probs x w b (ix2 p q) = Ideal.logistic ((∑ k : Fin 2048, x (ix2 p k) * w (ix2 k q)) + b (ix2 (0 : Fin 1) q)) := rfl

/-! ## One tile of rows -/

/-- One entry of a tile of rows of the splitter probabilities: the body's logistic of the tile's product with the
    weights plus the bias row, the change of format the identity on extended reals. -/
theorem tile_entry (x0 : Vec Ideal S1024x2048 .f32) (x1 : Vec Ideal S2048x1024 .bf16) (x2 : Vec Ideal S1x1024 .f32)
    (r : Fin 1024) (q : Fin 1024) :
    k0_pay1 x0 x1 x2 (ix2 r q)
      = Ideal.logistic ((∑ k : Fin 2048, x0 (ix2 r k) * x1 (ix2 k q)) + x2 (ix2 (0 : Fin 1) q)) := by
  unfold k0_pay1
  show Ideal.logistic (FloatOps.matmul (F := Ideal) dot_S1024x2048_S2048x1024_S1024x1024_1_0_0_1_n_n none
        (truncf (F := Ideal) .bf16 x0 bitsLt_bf16_f32) (shapeCast S2048x1024 x1 shapeCasts_S2048x1024_S2048x1024)
        (constant (F := Ideal) S1024x1024 .f32 0x00000000#32) (ix2 r q)
      + broadcastTo S1024x1024 (shapeCast S1x1024 x2 shapeCasts_S1x1024_S1x1024) broadcasts_S1x1024_S1024x1024 (ix2 r q)) = _
  rw [shapeCast_self, shapeCast_self]
  refine congrArg Ideal.logistic (congrArg₂ (· + ·) ?_ ?_)
  · exact Ideal.matmul_rows_cols dot_S1024x2048_S2048x1024_S1024x1024_1_0_0_1_n_n rfl rfl rfl rfl rfl rfl none
      (truncf (F := Ideal) .bf16 x0 bitsLt_bf16_f32) x1 r q
  · exact broadcastTo_1b_ab_apply x2 broadcasts_S1x1024_S1024x1024 r q

/-- A tile of 1024 rows: when the first block holds rows `n * 1024 …` of `x` and the other two blocks are the whole
    weights and bias row, the body's result is the same rows of the splitter probabilities. -/
theorem tile_eq (x : FVec Ideal S16384x2048 .f32) (w : FVec Ideal S2048x1024 .bf16) (b : FVec Ideal S1x1024 .f32)
    (x0 : Vec Ideal S1024x2048 .f32) (x1 : Vec Ideal S2048x1024 .bf16) (x2 : Vec Ideal S1x1024 .f32)
    (n : Nat) (hn : n ≤ 15)
    (h0 : ∀ (r : Fin 1024) (k : Fin 2048), x0 (ix2 r k) = x (ix2 (⟨n * 1024 + r.val, by omega⟩ : Fin 16384) k))
    (h1 : x1 = w) (h2 : x2 = b) (j : S1024x1024.Idx) :
    k0_pay1 x0 x1 x2 j
      = probs x w b (ix2 (⟨n * 1024 + (j 0).val, by have := idx2_lt0 j; omega⟩ : Fin 16384) (⟨(j 1).val, idx2_lt1 j⟩ : Fin 1024)) := by
  obtain ⟨r, q, rfl⟩ : ∃ (r : Fin 1024) (q : Fin 1024), j = ix2 r q := ⟨j 0, j 1, eq_ix2 j⟩
  show k0_pay1 x0 x1 x2 (ix2 r q) = probs x w b (ix2 (⟨n * 1024 + r.val, by omega⟩ : Fin 16384) q)
  rw [tile_entry, probs_apply, h1, h2]
  refine congrArg Ideal.logistic (congrArg (· + b (ix2 (0 : Fin 1) q)) ?_)
  exact Finset.sum_congr rfl fun k _ => congrArg (· * w (ix2 k q)) (h0 r k)

/-! ## From the tiles to the array -/

theorem zero_offsets : (![0, 0] : Fin 2 → Nat) = fun _ => 0 := funext fun a => by fin_cases a <;> rfl

/-- The printed index maps, decided over the grid: the tile of rows and the tile of the result move together, with the
    grid point; the weights and the bias row stay in place. -/
theorem index_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- WHAT POINT `t` WRITES BACK is its tile of rows of the splitter probabilities of the arrays as the region finds
    them: the tile of `x` is read at the result tile's rows, the weights and the bias row whole. -/
theorem flushed_eq (c : Dev nD) (t : Fin cfg0.N) :
    (dat0 (F := Ideal) V c).flushed 3 t
      = ((cfg0.win 3).blk t).view.read (Elt Ideal) (probs (V c main_arg0) (V c main_v3) (V c main_v2)) := by
  show (cfg0.win 3).cut (grid0.coords t) ((dat0 V c).after 3 t) = _
  rw [after0_3]
  unfold out0_3
  rw [View.canon_unit_zero zero_offsets]
  simp only [View.ld_unit_zero (S := S1024x2048) zero_offsets, View.ld_unit_zero (S := S2048x1024) zero_offsets,
    View.ld_unit_zero (S := S1x1024) zero_offsets]
  obtain ⟨e30, e31, e00, e01, e10, e11, e20, e21⟩ := index_facts t
  have ht : t.val ≤ 15 := by have h : t.val < 16 := lt_of_lt_of_eq t.isLt N_0; omega
  funext j
  show k0_pay1 (iblk0 V c 0 t) (iblk0 V c 1 t) (iblk0 V c 2 t) j
    = probs (V c main_arg0) (V c main_v3) (V c main_v2) (((cfg0.win 3).blk t).view.emb j)
  refine (tile_eq (V c main_arg0) (V c main_v3) (V c main_v2) (iblk0 V c 0 t) (iblk0 V c 1 t) (iblk0 V c 2 t) t.val ht
    ?_ ?_ ?_ j).trans ?_
  · intro r k
    have e : ((cfg0.win 0).blk t).view.emb (ix2 r k) = ix2 (⟨t.val * 1024 + r.val, by omega⟩ : Fin 16384) k := by
      funext a; apply Fin.ext
      match a with
      | ⟨0, _⟩ => show win0_0.index t (0 : Fin 2) * 1024 + 1 * r.val = t.val * 1024 + r.val; omega
      | ⟨1, _⟩ => show win0_0.index t (1 : Fin 2) * 2048 + 1 * k.val = k.val; omega
    show V c main_arg0 (((cfg0.win 0).blk t).view.emb (ix2 r k)) = _
    rw [e]
  · funext y
    have e : ((cfg0.win 1).blk t).view.emb y = y := by
      funext a; apply Fin.ext
      match a with
      | ⟨0, _⟩ => show win0_1.index t (0 : Fin 2) * 2048 + 1 * (y 0).val = (y 0).val; omega
      | ⟨1, _⟩ => show win0_1.index t (1 : Fin 2) * 1024 + 1 * (y 1).val = (y 1).val; omega
    show V c main_v3 (((cfg0.win 1).blk t).view.emb y) = V c main_v3 y
    rw [e]
  · funext y
    have e : ((cfg0.win 2).blk t).view.emb y = y := by
      funext a; apply Fin.ext
      match a with
      | ⟨0, _⟩ => show win0_2.index t (0 : Fin 2) * 1 + 1 * (y 0).val = (y 0).val; omega
      | ⟨1, _⟩ => show win0_2.index t (1 : Fin 2) * 1024 + 1 * (y 1).val = (y 1).val; omega
    show V c main_v2 (((cfg0.win 2).blk t).view.emb y) = V c main_v2 y
    rw [e]
  · refine congrArg (probs (V c main_arg0) (V c main_v3) (V c main_v2)) ?_
    funext a; apply Fin.ext
    match a with
    | ⟨0, _⟩ => show t.val * 1024 + (j 0).val = win0_3.index t (0 : Fin 2) * 1024 + 1 * (j 0).val; omega
    | ⟨1, _⟩ => show (j 1).val = win0_3.index t (1 : Fin 2) * 1024 + 1 * (j 1).val; omega

/-- An index of the array is in point `t`'s tile iff each coordinate is in the tile's range on its axis. -/
theorem mem_tile (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- The sixteen tiles of 1024 rows cover the array: row `p` is in the tile of point `p / 1024`, which is written back. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, htv⟩ : ∃ t : Fin cfg0.N, t.val = (i 0).val / 1024 :=
    ⟨⟨(i 0).val / 1024, lt_of_lt_of_eq (show (i 0).val / 1024 < 16 by omega) N_0.symm⟩, rfl⟩
  obtain ⟨e30, e31, -⟩ := index_facts t
  refine ⟨t, flush0_3 t, ?_⟩
  rw [mem_tile]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE ARRAY after the region's pipeline: the splitter probabilities of the arrays as the region finds them. -/
theorem arr_eq (c : Dev nD) :
    (dat0 (F := Ideal) V c).arrAt 3 cfg0.N = probs (V c main_arg0) (V c main_v3) (V c main_v2) :=
  (dat0 V c).arrAt_eq_of_cover 3 _ (fun t _ => flushed_eq V c t) covered

/-- Every entry of the array after the region's pipeline: the logistic of the row's product with the padded weights'
    column plus the padded bias (the product and the sum are the extended reals'). -/
theorem arr_entry (c : Dev nD) (p : Fin 16384) (q : Fin 1024) :
    (dat0 (F := Ideal) V c).arrAt 3 cfg0.N (ValueIdx.ix2 p q)
      = Ideal.logistic (HAdd.hAdd (α := EReal) (β := EReal) (γ := EReal)
          (∑ k : Fin 2048, HMul.hMul (α := EReal) (β := EReal) (γ := EReal)
            (V c main_arg0 (ValueIdx.ix2 p k)) (V c main_v3 (ValueIdx.ix2 k q)))
          (V c main_v2 (ValueIdx.ix2 (0 : Fin 1) q))) := by
  rw [arr_eq]
  exact probs_apply (V c main_arg0) (V c main_v3) (V c main_v2) p q

/-- The same with the three arrays named: for any spelling `x`, `w`, `b` of what the region finds in them. -/
theorem arr_entry_of (c : Dev nD) (x : FVec Ideal S16384x2048 .f32) (w : FVec Ideal S2048x1024 .bf16)
    (b : FVec Ideal S1x1024 .f32) (hx : V c main_arg0 = x) (hw : V c main_v3 = w) (hb : V c main_v2 = b)
    (p : Fin 16384) (q : Fin 1024) :
    (dat0 (F := Ideal) V c).arrAt 3 cfg0.N (ValueIdx.ix2 p q)
      = Ideal.logistic ((∑ k : Fin 2048, x (ValueIdx.ix2 p k) * w (ValueIdx.ix2 k q)) + b (ValueIdx.ix2 (0 : Fin 1) q)) := by
  subst hx hw hb
  rw [arr_eq]
  exact probs_apply (V c main_arg0) (V c main_v3) (V c main_v2) p q

end Cert.KernelIdeal.Splitter

end
-- ==== Proof.PaddedOperands.lean ====
import proofs.«135782_j18683107738106_1_alg».proof.Proof.Gen.KernelIdeal.Frame
import Idealize.ShloMosaic.Lib.StableHlo.Run
import Idealize.ShloMosaic.Lib.ValueIdx
import Idealize.ShloMosaic.Lib.Pipeline.Value
import Idealize.ShloMosaic.Lib.KernelVsHost

/-!
# The operands of the two matrix products, as the host operations before them leave them

Before the first product the program pads the weight matrix `W : [2048, 1023]` and the bias `b : [1023]` with one
zero column on the right, reshapes the padded bias to one row `[1, 1024]`, and changes the format of the padded weights
and of the leaf values to bf16. Over the extended reals a change of format is the identity, a reshape of a vector to a
one-row matrix keeps entry `q` at `(0, q)`, and a pad read at an index inside the operand's extent is the operand's entry.
So, at every column `q < 1023`, the padded operands hold the arguments' own entries, and the leaf values are unchanged.
-/

noncomputable section

namespace Cert.KernelIdeal.Head

open Idealize.ShloMosaic Idealize.ShloMosaic.TcCoe Idealize.ShloMosaic.ValueIdx
open Cert.KernelIdeal Cert.KernelIdeal.Gen

/-! ## A pad read inside the operand, over literal shapes -/

/-- A `[2048, 1023]` matrix padded with one column on the right, read at a column below 1023, is the matrix there. -/
theorem pad_column_inside (x : S2048x1023.Idx → EReal) (v : S_.Idx → EReal)
    (h : S2048x1023.Pads (![0, 0] : Fin 2 → Nat) ![0, 1] ![0, 0] S2048x1024) (hu : 0 < S_.numel)
    (k : Fin 2048) (q : Fin 1023) :
    pad S2048x1024 ![0, 0] ![0, 1] ![0, 0] x v h hu (ix2 k (⟨q.val, by omega⟩ : Fin 1024)) = x (ix2 k q) :=
  pad_apply_of_inside _ _ _ x v h hu _ (ix2 k q) (fun a => match a with
    | ⟨0, _⟩ => (show k.val = 0 + k.val * (0 + 1) by omega)
    | ⟨1, _⟩ => (show q.val = 0 + q.val * (0 + 1) by omega))

/-- A `[1023]` vector padded with one entry at the end and reshaped to one row `[1, 1024]`, read at `(0, q)` with
    `q < 1023`, is the vector's entry `q`: the one-row reshape keeps the position, the pad is read inside. -/
theorem reshape_pad_inside (x : S1023.Idx → EReal) (v : S_.Idx → EReal)
    (h : S1023.Pads (![0] : Fin 1 → Nat) ![1] ![0] S1024) (hu : 0 < S_.numel) (hc : S1024.ShapeCasts S1x1024)
    (q : Fin 1023) :
    shapeCast S1x1024 (pad S1024 ![0] ![1] ![0] x v h hu) hc (ix2 (0 : Fin 1) (⟨q.val, by omega⟩ : Fin 1024))
      = x (ix1 q) := by
  refine (shapeCast_apply _ hc _ (ix1 (⟨q.val, by omega⟩ : Fin 1024)) (by
    rw [Shape.rowMajor_val_two, Shape.rowMajor_val_one]; show q.val = 0 * 1024 + q.val; omega)).trans ?_
  exact pad_apply_of_inside _ _ _ x v h hu _ (ix1 q) (fun a => match a with
    | ⟨0, _⟩ => (show q.val = 0 + q.val * (0 + 1) by omega))

/-! ## The operand buffers when the first product is entered -/

variable (m : (ℓ : Loc nD τ sig) → Buf (Elt Ideal) ℓ) (ρ : Dev nD → PrngReg) (c : Dev nD)

/-- No host operation before the first product writes the input rows: they are as launched. -/
theorem W5_arg0 : W5 (F := Ideal) m ρ c (Proc.devRef .tc main_arg0) = m ((c : Thread nD τ).loc main_arg0) := by
  dsimp only [W5, W4, W3, W2, W1, W0]
  simp only [hostOps0, hostOps0_1, hostOps0_2, hostOps0_3, hostOps0_4]
  after_results

set_option maxHeartbeats 50000 in
/-- The padded bf16 weights at a column below 1023 are the weight argument's entries. -/
theorem W5_weights_entry (k : Fin 2048) (q : Fin 1023) :
    W5 (F := Ideal) m ρ c (Proc.devRef .tc main_v3) (ix2 k (⟨q.val, by omega⟩ : Fin 1024))
      = m ((c : Thread nD τ).loc main_arg1) (ix2 k q) := by
  dsimp only [W5, W4, W3, W2, W1, W0]
  simp only [hostOps0, hostOps0_1, hostOps0_2, hostOps0_3, hostOps0_4]
  after_results
  exact pad_column_inside _ _ Facts₀.pads_S2048x1023_S2048x1024_000_010 Facts₀.h_S_ k q

set_option maxHeartbeats 50000 in
/-- The padded one-row bias at a column below 1023 is the bias argument's entry. -/
theorem W5_bias_entry (q : Fin 1023) :
    W5 (F := Ideal) m ρ c (Proc.devRef .tc main_v2) (ix2 (0 : Fin 1) (⟨q.val, by omega⟩ : Fin 1024))
      = m ((c : Thread nD τ).loc main_arg2) (ix1 q) := by
  dsimp only [W5, W4, W3, W2, W1, W0]
  simp only [hostOps0, hostOps0_1, hostOps0_2, hostOps0_3, hostOps0_4]
  after_results
  exact reshape_pad_inside _ _ Facts₀.pads_S1023_S1024_010 Facts₀.h_S_ Facts₀.shapeCasts_S1024_S1x1024 q

set_option maxHeartbeats 50000 in
/-- The bf16 leaf values are the leaf argument's entries. -/
theorem W5_leaves_entry (k : Fin 1024) (q : Fin 512) :
    W5 (F := Ideal) m ρ c (Proc.devRef .tc main_v4) (ix2 k q) = m ((c : Thread nD τ).loc main_arg3) (ix2 k q) := by
  dsimp only [W5, W4, W3, W2, W1, W0]
  simp only [hostOps0, hostOps0_1, hostOps0_2, hostOps0_3, hostOps0_4]
  after_results
  rfl

end Cert.KernelIdeal.Head
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«135782_j18683107738106_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.ReferenceSplitter.lean ====
import proofs.«135782_j18683107738106_1_alg».proof.Proof.Gen.ReferenceIdeal.Run
import proofs.«135782_j18683107738106_1_alg».proof.Proof.LibDotGeneralEntry
import Idealize.ShloMosaic.Lib.ValueIdx
import Idealize.ShloMosaic.Lib.Pipeline.Value
import Idealize.ShloMosaic.PureOps.Ideal.Laws

/-!
# The reference's splitter probabilities, entry by entry

The reference computes the inner nodes' probabilities as `1 / (1 + exp (-(x · W + b)))`: the product of the input rows
with the weight matrix, the bias copied down the rows, then negation, exponential, the sum with the constant one and
the quotient of the constant one by it. Over the extended reals every one of these acts entry by entry, the product's
entry `(p, q)` is the plain sum `∑ k, x[p, k] * W[k, q]`, the copied bias at `(p, q)` is `b[q]`, and the constant's bit
pattern denotes `1`; and `1 / (1 + exp (-t))` is by definition the logistic function of `t`. So entry `(p, q)` is the
logistic function of `∑ k, x[p, k] * W[k, q] + b[q]`.
-/

noncomputable section

open scoped BigOperators

namespace Cert.ReferenceIdeal.Head

open Idealize.ShloMosaic Idealize.ShloMosaic.TcCoe Idealize.ShloMosaic.ValueIdx
open Cert.ReferenceIdeal

/-- The bit pattern of the single-precision `1.0` denotes the extended real `1`. -/
theorem ofBits_one_f32 : Ideal.ofBits .f32 0x3F800000#32 = 1 := by
  simp [Ideal.ofBits, Ideal.ieee, -EReal.coe_mul]; norm_num

/-- The constant `1.0` copied to every entry of a `[16384, 1023]` matrix is `1` at every entry. -/
theorem ones_entry (h : S_.BroadcastsInDim S16384x1023 (![] : Fin 0 → Fin S16384x1023.rank)) (p : Fin 16384) (q : Fin 1023) :
    broadcastInDim S16384x1023 ![] h (constant (F := Ideal) S_ .f32 0x3F800000#32) (ix2 p q) = 1 :=
  (broadcastInDim_apply ![] h (constant (F := Ideal) S_ .f32 0x3F800000#32) (ix2 p q) ix0 (fun a => a.elim0)).trans
    ofBits_one_f32

/-- The bias, made one row and copied down the `16384` rows, holds `b[q]` at `(p, q)`. -/
theorem bias_rows_entry (b : FVec Ideal S1023 .f32)
    (h1 : S1023.BroadcastsInDim S1x1023 (![1] : Fin 1 → Fin S1x1023.rank))
    (h2 : S1x1023.BroadcastsInDim S16384x1023 (![0, 1] : Fin 2 → Fin S16384x1023.rank)) (p : Fin 16384) (q : Fin 1023) :
    broadcastInDim S16384x1023 ![0, 1] h2 (broadcastInDim S1x1023 ![1] h1 b) (ix2 p q) = b (ix1 q) := by
  refine (broadcastInDim_apply ![0, 1] h2 _ (ix2 p q) (ix2 (0 : Fin 1) q) (fun a => match a with
    | ⟨0, _⟩ => rfl
    | ⟨1, _⟩ => rfl)).trans ?_
  exact broadcastInDim_apply ![1] h1 b (ix2 (0 : Fin 1) q) (ix1 q) (fun a => match a with
    | ⟨0, _⟩ => rfl)

/-- The reference's chain of operations on variables of the arguments' types, read at entry `(p, q)`. -/
theorem splitter_entry_of (x : FVec Ideal S16384x2048 .f32) (w : FVec Ideal S2048x1023 .f32) (b : FVec Ideal S1023 .f32)
    (h0 : S_.BroadcastsInDim S16384x1023 (![] : Fin 0 → Fin S16384x1023.rank))
    (h1 : S1023.BroadcastsInDim S1x1023 (![1] : Fin 1 → Fin S1x1023.rank))
    (h2 : S1x1023.BroadcastsInDim S16384x1023 (![0, 1] : Fin 2 → Fin S16384x1023.rank)) (p : Fin 16384) (q : Fin 1023) :
    Host.divf (broadcastInDim S16384x1023 ![] h0 (constant (F := Ideal) S_ .f32 0x3F800000#32))
        (addf (broadcastInDim S16384x1023 ![] h0 (constant (F := Ideal) S_ .f32 0x3F800000#32))
          (Host.exp (Host.negf (addf (Host.dotGeneral dot_S16384x2048_S2048x1023_S16384x1023_1_0_0_1_n_n none x w)
            (broadcastInDim S16384x1023 ![0, 1] h2 (broadcastInDim S1x1023 ![1] h1 b)))))) (ix2 p q)
      = Ideal.logistic ((∑ k : Fin 2048, x (ix2 p k) * w (ix2 k q)) + b (ix1 q)) := by
  show Ideal.div (broadcastInDim S16384x1023 ![] h0 (constant (F := Ideal) S_ .f32 0x3F800000#32) (ix2 p q))
      (broadcastInDim S16384x1023 ![] h0 (constant (F := Ideal) S_ .f32 0x3F800000#32) (ix2 p q)
        + Ideal.exp (-(FloatOps.dotGeneral dot_S16384x2048_S2048x1023_S16384x1023_1_0_0_1_n_n none .single x w (ix2 p q)
            + broadcastInDim S16384x1023 ![0, 1] h2 (broadcastInDim S1x1023 ![1] h1 b) (ix2 p q)))) = _
  rw [ones_entry h0 p q, bias_rows_entry b h1 h2 p q,
    Ideal.dotGeneral_rows_cols dot_S16384x2048_S2048x1023_S16384x1023_1_0_0_1_n_n rfl rfl rfl rfl rfl rfl none .single x w p q]
  rfl

/-- Entry `(p, q)` of the reference's splitter probabilities is the logistic function of row `p` of the inputs times
    column `q` of the weights, plus the bias entry `q`. -/
theorem splitter_entry (V0 : Valuation τ sig (Elt Ideal)) (p : Fin 16384) (q : Fin 1023) :
    Value.res_main_v9 (F := Ideal) V0 (ix2 p q)
      = Ideal.logistic (@HAdd.hAdd EReal EReal EReal instHAdd
          (∑ k : Fin 2048, @HMul.hMul EReal EReal EReal instHMul
            (V0 (Proc.devRef .tc main_arg0) (ix2 p k)) (V0 (Proc.devRef .tc main_arg1) (ix2 k q)))
          (V0 (Proc.devRef .tc main_arg2) (ix1 q))) := by
  unfold Value.res_main_v9
  exact splitter_entry_of (V0 (Proc.devRef .tc main_arg0)) (V0 (Proc.devRef .tc main_arg1)) (V0 (Proc.devRef .tc main_arg2))
    Facts₀.bcast_S_S16384x1023 Facts₀.bcast_S1023_S1x1023_1 Facts₀.bcast_S1x1023_S16384x1023_0_1 p q

end Cert.ReferenceIdeal.Head
-- ==== Proof.SplitterAgree.lean ====
/-
  The two programs' splitter probabilities are one array, at the ideal values.

  The kernel's program cuts the pad column off its first product's result; entry `(p, q)`, `q < 1023`, of what is left is
  the logistic of row `p` of `x` times column `q` of the padded weights plus the padded bias at `q`, and inside the
  unpadded width the padded weights and bias are the arguments' own entries. The reference's first twelve operations
  leave the logistic of row `p` of `x` times column `q` of the weights plus the bias at `q`. When the two programs are
  launched on the same three arguments these are the same extended real, entry by entry (`splitter_agree_entry`), so the
  two arrays are equal (`splitter_agree`).
-/
import proofs.«135782_j18683107738106_1_alg».proof.Proof.SplitterBlocks
import proofs.«135782_j18683107738106_1_alg».proof.Proof.PaddedOperands
import proofs.«135782_j18683107738106_1_alg».proof.Proof.ReferenceSplitter
import proofs.«135782_j18683107738106_1_alg».proof.Proof.GlueEnds

noncomputable section

open scoped BigOperators

namespace Cert.Agree

open Idealize.ShloMosaic Idealize.ShloMosaic.TcCoe Idealize.ShloMosaic.ValueIdx

/-- Entry `(p, q)`, `q < 1023`, of the two programs' splitter probabilities: the kernel's is the first product's
    result with its pad column cut off, the logistic of row `p` times the padded weights' column `q` plus the padded
    bias at `q`; inside the unpadded width the padded operands are the arguments' own entries; the reference's is the
    logistic of the same sum of the same three arguments. -/
theorem splitter_agree_entry
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (V0 : Valuation Cert.ReferenceIdeal.τ Cert.ReferenceIdeal.sig (Elt Ideal))
    (h0 : V0 (Proc.devRef .tc Cert.ReferenceIdeal.main_arg0) = m ((c : Thread Cert.KernelIdeal.nD Cert.KernelIdeal.τ).loc Cert.KernelIdeal.main_arg0))
    (h1 : V0 (Proc.devRef .tc Cert.ReferenceIdeal.main_arg1) = m ((c : Thread Cert.KernelIdeal.nD Cert.KernelIdeal.τ).loc Cert.KernelIdeal.main_arg1))
    (h2 : V0 (Proc.devRef .tc Cert.ReferenceIdeal.main_arg2) = m ((c : Thread Cert.KernelIdeal.nD Cert.KernelIdeal.τ).loc Cert.KernelIdeal.main_arg2))
    (p : Fin 16384) (q : Fin 1023) :
    StableHlo.after ((Cert.KernelIdeal.Gen.hostOps1 (F := Ideal)).take 1) (Cert.KernelIdeal.Gen.W6 m ρ c) (Proc.devRef .tc Cert.KernelIdeal.main_v6) (ix2 p q)
      = StableHlo.after ((Cert.ReferenceIdeal.Value.ops (F := Ideal)).take 12) V0 (Proc.devRef .tc Cert.ReferenceIdeal.main_v9) (ix2 p q) := by
  -- the six arrays under typed names
  obtain ⟨x, hx⟩ : ∃ x : FVec Ideal Cert.KernelIdeal.S16384x2048 .f32, Cert.KernelIdeal.Gen.V5 m ρ c Cert.KernelIdeal.main_arg0 = x := ⟨_, rfl⟩
  obtain ⟨w, hw⟩ : ∃ w : FVec Ideal Cert.KernelIdeal.S2048x1024 .bf16, Cert.KernelIdeal.Gen.V5 m ρ c Cert.KernelIdeal.main_v3 = w := ⟨_, rfl⟩
  obtain ⟨b, hb⟩ : ∃ b : FVec Ideal Cert.KernelIdeal.S1x1024 .f32, Cert.KernelIdeal.Gen.V5 m ρ c Cert.KernelIdeal.main_v2 = b := ⟨_, rfl⟩
  obtain ⟨x', hx'⟩ : ∃ x' : FVec Ideal Cert.ReferenceIdeal.S16384x2048 .f32, V0 (Proc.devRef .tc Cert.ReferenceIdeal.main_arg0) = x' := ⟨_, rfl⟩
  obtain ⟨w', hw'⟩ : ∃ w' : FVec Ideal Cert.ReferenceIdeal.S2048x1023 .f32, V0 (Proc.devRef .tc Cert.ReferenceIdeal.main_arg1) = w' := ⟨_, rfl⟩
  obtain ⟨b', hb'⟩ : ∃ b' : FVec Ideal Cert.ReferenceIdeal.S1023 .f32, V0 (Proc.devRef .tc Cert.ReferenceIdeal.main_arg2) = b' := ⟨_, rfl⟩
  -- the kernel's entry
  have hk : StableHlo.after ((Cert.KernelIdeal.Gen.hostOps1 (F := Ideal)).take 1) (Cert.KernelIdeal.Gen.W6 m ρ c) (Proc.devRef .tc Cert.KernelIdeal.main_v6) (ix2 p q)
      = Ideal.logistic ((∑ k : Fin 2048, x (ix2 p k) * w (ix2 k (⟨q.val, by omega⟩ : Fin 1024))) + b (ix2 (0 : Fin 1) (⟨q.val, by omega⟩ : Fin 1024))) :=
    (Cert.Ends.sliced_entry (Cert.KernelIdeal.Gen.W6 m ρ c) p q).trans
      ((congrFun (Cert.KernelIdeal.Gen.W6_arr m ρ c 3) (ix2 p (⟨q.val, by omega⟩ : Fin 1024))).trans
        (Cert.KernelIdeal.Splitter.arr_entry_of (Cert.KernelIdeal.Gen.V5 m ρ) c x w b hx hw hb p (⟨q.val, by omega⟩ : Fin 1024)))
  -- the reference's entry
  have hr : StableHlo.after ((Cert.ReferenceIdeal.Value.ops (F := Ideal)).take 12) V0 (Proc.devRef .tc Cert.ReferenceIdeal.main_v9) (ix2 p q)
      = Ideal.logistic ((∑ k : Fin 2048, x' (ix2 p k) * w' (ix2 k q)) + b' (ix1 q)) := by
    rw [Cert.Ends.ref_head V0]
    subst hx' hw' hb'
    exact Cert.ReferenceIdeal.Head.splitter_entry V0 p q
  -- the operands agree
  have ex : x = x' := hx.symm.trans ((Cert.KernelIdeal.Head.W5_arg0 m ρ c).trans (h0.symm.trans hx'))
  have ew : ∀ k : Fin 2048, w (ix2 k (⟨q.val, by omega⟩ : Fin 1024)) = w' (ix2 k q) := fun k =>
    (congrFun hw.symm (ix2 k (⟨q.val, by omega⟩ : Fin 1024))).trans
      ((Cert.KernelIdeal.Head.W5_weights_entry m ρ c k q).trans (congrFun (h1.symm.trans hw') (ix2 k q)))
  have eb : b (ix2 (0 : Fin 1) (⟨q.val, by omega⟩ : Fin 1024)) = b' (ix1 q) :=
    (congrFun hb.symm (ix2 (0 : Fin 1) (⟨q.val, by omega⟩ : Fin 1024))).trans
      ((Cert.KernelIdeal.Head.W5_bias_entry m ρ c q).trans (congrFun (h2.symm.trans hb') (ix1 q)))
  have es : (∑ k : Fin 2048, x (ix2 p k) * w (ix2 k (⟨q.val, by omega⟩ : Fin 1024))) = ∑ k : Fin 2048, x' (ix2 p k) * w' (ix2 k q) :=
    Finset.sum_congr rfl fun k _ => by rw [ex, ew k]
  rw [hk, hr, es, eb]

/-- The two programs' splitter probabilities are one array: the kernel's after the pad column is cut off, the
    reference's after its first twelve operations. -/
theorem splitter_agree
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (V0 : Valuation Cert.ReferenceIdeal.τ Cert.ReferenceIdeal.sig (Elt Ideal))
    (h0 : V0 (Proc.devRef .tc Cert.ReferenceIdeal.main_arg0) = m ((c : Thread Cert.KernelIdeal.nD Cert.KernelIdeal.τ).loc Cert.KernelIdeal.main_arg0))
    (h1 : V0 (Proc.devRef .tc Cert.ReferenceIdeal.main_arg1) = m ((c : Thread Cert.KernelIdeal.nD Cert.KernelIdeal.τ).loc Cert.KernelIdeal.main_arg1))
    (h2 : V0 (Proc.devRef .tc Cert.ReferenceIdeal.main_arg2) = m ((c : Thread Cert.KernelIdeal.nD Cert.KernelIdeal.τ).loc Cert.KernelIdeal.main_arg2)) :
    StableHlo.after ((Cert.KernelIdeal.Gen.hostOps1 (F := Ideal)).take 1) (Cert.KernelIdeal.Gen.W6 m ρ c) (Proc.devRef .tc Cert.KernelIdeal.main_v6)
      = StableHlo.after ((Cert.ReferenceIdeal.Value.ops (F := Ideal)).take 12) V0 (Proc.devRef .tc Cert.ReferenceIdeal.main_v9) := by
  funext i
  obtain ⟨p, q, rfl⟩ : ∃ (p : Fin 16384) (q : Fin 1023), i = ix2 p q := ⟨i 0, i 1, eq_ix2 i⟩
  exact splitter_agree_entry m ρ c V0 h0 h1 h2 p q

end Cert.Agree

end
-- ==== Proof.LeafBlocks.lean ====
/-
  What the second pallas_call leaves in its output array, entry by entry, at the ideal values.

  The call walks 16 tiles of 1024 rows. At each tile it multiplies the tile's rows of the leaf probabilities
  (a [16384, 1024] array: 1024 leaves) by the whole [1024, 512] array of leaf values, and writes the product to the
  same rows of the [16384, 512] output. So, whatever the two arrays hold when the call starts, the output ends holding
  their matrix product: entry (p, q) is the sum over the 1024 leaves k of probability (p, k) times value (k, q).

  The steps: the product as ONE function of the two arrays (mix); the body's stored value at an entry of a tile
  (tile_entry) and, from it, a tile of the product out of a tile of rows of the probabilities (tile_of_mix); where
  each window's block sits at a grid point (tile_rows: the probabilities' and the output's tiles at rows
  1024 t … 1024 t + 1023, the values' block the whole array); what a grid point writes back is its block of the
  product (written_back); every row lies in the tile of the point row / 1024 (covered); hence the array after the
  call, as a function (arr_eq) and at an entry (arr_entry, arr_entry_of).
-/
import proofs.«135782_j18683107738106_1_alg».proof.Proof.Gen.KernelIdeal.Frame
import proofs.«135782_j18683107738106_1_alg».proof.Proof.LibMatmulEntry
import Idealize.ShloMosaic.Lib.Pipeline.Value
import Idealize.ShloMosaic.Lib.ValueIdx
import Idealize.ShloMosaic.PureOps.Ideal.Laws

noncomputable section

open scoped BigOperators

namespace Cert.KernelIdeal.Leaves

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of an access to a whole tile, as the constant function. -/
theorem zero_offsets : (![0, 0] : Fin 2 → Nat) = fun _ => 0 := funext fun a => by fin_cases a <;> rfl

/-! ## The product, as one function of the two arrays -/

/-- The leaf values mixed by the leaf probabilities: the matrix product of a [16384, 1024] array with a
    [1024, 512] array, entry (p, q) the sum over the 1024 leaves k of a (p, k) · v (k, q). -/
def mix (a : FVec Ideal S16384x1024 .f32) (v : FVec Ideal S1024x512 .bf16) : FVec Ideal S16384x512 .f32 :=
  fun i => ∑ k : Fin 1024, a (ix2 (⟨(i 0).val, idx2_lt0 i⟩ : Fin 16384) k) * v (ix2 k (⟨(i 1).val, idx2_lt1 i⟩ : Fin 512))

/-- The product at an entry given by its row and its column. -/
theorem mix_apply (a : FVec Ideal S16384x1024 .f32) (v : FVec Ideal S1024x512 .bf16) (p : Fin 16384) (q : Fin 512) :
    mix a v (ix2 p q) = ∑ k : Fin 1024, a (ix2 p k) * v (ix2 k q) := rfl

/-! ## The body's stored value on one tile -/

/-- At row r of the tile and column q: the tile's row of probabilities times the column of the values. Rounding the
    probabilities to bf16 is the identity at the ideal values, the two casts keep their shapes, and the product
    accumulates into zero. -/
theorem tile_entry (x0 : FVec Ideal S1024x1024 .f32) (x1 : FVec Ideal S1024x512 .bf16) (r : Fin 1024) (q : Fin 512) :
    k1_pay1 (F := Ideal) x0 x1 (ix2 r q) = ∑ k : Fin 1024, x0 (ix2 r k) * x1 (ix2 k q) := by
  unfold k1_pay1
  refine (Ideal.matmul_rows_cols dot_S1024x1024_S1024x512_S1024x512_1_0_0_1_n_n rfl rfl rfl rfl rfl rfl none _ _ r q).trans ?_
  refine Finset.sum_congr rfl fun k _ => ?_
  rw [shapeCast_self, shapeCast_self]
  rfl

/-- A tile of the product from a tile of rows: if x0 is rows 1024 n … 1024 n + 1023 of the probabilities a, and x1 is
    the values v, the body's stored value at row r of the tile is the product at row 1024 n + r. -/
theorem tile_of_mix (a : FVec Ideal S16384x1024 .f32) (v : FVec Ideal S1024x512 .bf16)
    (x0 : FVec Ideal S1024x1024 .f32) (x1 : FVec Ideal S1024x512 .bf16) (n : Nat)
    (h0 : ∀ (r k : Fin 1024) (h : n * 1024 + r.val < 16384), x0 (ix2 r k) = a (ix2 (⟨n * 1024 + r.val, h⟩ : Fin 16384) k))
    (h1 : ∀ (k : Fin 1024) (q : Fin 512), x1 (ix2 k q) = v (ix2 k q))
    (r : Fin 1024) (q : Fin 512) (h : n * 1024 + r.val < 16384) :
    k1_pay1 (F := Ideal) x0 x1 (ix2 r q) = mix a v (ix2 (⟨n * 1024 + r.val, h⟩ : Fin 16384) q) := by
  rw [tile_entry, mix_apply]
  exact Finset.sum_congr rfl fun k _ => by rw [h0 r k h, h1 k q]

/-! ## From the tiles to the array -/

/-- Where each window's block sits at grid point t, decided over the 16 points: the probabilities' tile and the
    output's tile are tile t of the rows and all the columns; the values' block is the whole array. -/
theorem tile_rows : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point t writes back is block t of the product of the two arrays as the call finds them: entry (r, q)
    of the output's tile sits at row 1024 t + r of the array, entry (r, k) of the probabilities' tile at the same row,
    and the values' block is the whole array. -/
theorem written_back (c : Dev nD) (t : Fin cfg1.N) :
    (dat1 (F := Ideal) V c).flushed 2 t
      = ((cfg1.win 2).blk t).view.read (Elt Ideal) (mix (V c main_v217) (V c main_v4)) := by
  show (cfg1.win 2).cut (grid1.coords t) ((dat1 (F := Ideal) V c).after 2 t) = _
  rw [after1_2]
  unfold out1_2
  rw [View.canon_unit_zero zero_offsets]
  simp only [View.ld_unit_zero (S := S1024x1024) zero_offsets, View.ld_unit_zero (S := S1024x512) zero_offsets]
  obtain ⟨e00, e01, e10, e11, e20, e21⟩ := tile_rows t
  have hN : t.val < 16 := Nat.lt_of_lt_of_eq t.isLt N_1
  funext y
  have hy0 : (y 0).val < 1024 := (y 0).isLt
  have hy1 : (y 1).val < 512 := (y 1).isLt
  have hrow : t.val * 1024 + (y 0).val < 16384 := by omega
  -- the entry of the tile, by its row and its column
  have ey : (win1 2).xinj (grid1.coords t) y = ix2 (⟨(y 0).val, hy0⟩ : Fin 1024) (⟨(y 1).val, hy1⟩ : Fin 512) :=
    funext fun a => Fin.ext (by match a with | ⟨0, _⟩ => rfl | ⟨1, _⟩ => rfl)
  -- and where it sits in the array: block index × block size + 1 × the coordinate inside the block, on each axis
  have ei : ((View.whole main_v218).slice ((win1 2).rect t)).emb y
      = ix2 (⟨t.val * 1024 + (y 0).val, hrow⟩ : Fin 16384) (⟨(y 1).val, hy1⟩ : Fin 512) := by
    funext a; apply Fin.ext
    match a with
    | ⟨0, _⟩ => show win1_2.index t (0 : Fin 2) * 1024 + 1 * (y 0).val = t.val * 1024 + (y 0).val; rw [e20]; omega
    | ⟨1, _⟩ => show win1_2.index t (1 : Fin 2) * 512 + 1 * (y 1).val = (y 1).val; rw [e21]; omega
  show k1_pay1 (F := Ideal) (iblk1 V c 0 t) (iblk1 V c 1 t) ((win1 2).xinj (grid1.coords t) y)
    = mix (V c main_v217) (V c main_v4) (((View.whole main_v218).slice ((win1 2).rect t)).emb y)
  rw [ey, ei]
  refine tile_of_mix (V c main_v217) (V c main_v4) (iblk1 V c 0 t) (iblk1 V c 1 t) t.val ?_ ?_ _ _ hrow
  · -- the probabilities' tile is rows 1024 t … of their array
    intro r k h
    show V c main_v217 (((cfg1.win 0).blk t).view.emb (ix2 r k)) = V c main_v217 (ix2 (⟨t.val * 1024 + r.val, h⟩ : Fin 16384) k)
    refine congrArg (V c main_v217) ?_
    funext a; apply Fin.ext
    match a with
    | ⟨0, _⟩ => show win1_0.index t (0 : Fin 2) * 1024 + 1 * r.val = t.val * 1024 + r.val; rw [e00]; omega
    | ⟨1, _⟩ => show win1_0.index t (1 : Fin 2) * 1024 + 1 * k.val = k.val; rw [e01]; omega
  · -- the values' block is their whole array
    intro k q
    show V c main_v4 (((cfg1.win 1).blk t).view.emb (ix2 k q)) = V c main_v4 (ix2 k q)
    refine congrArg (V c main_v4) ?_
    funext a; apply Fin.ext
    match a with
    | ⟨0, _⟩ => show win1_1.index t (0 : Fin 2) * 1024 + 1 * k.val = k.val; rw [e10]; omega
    | ⟨1, _⟩ => show win1_1.index t (1 : Fin 2) * 512 + 1 * q.val = q.val; rw [e11]; omega

/-- An entry of the output array is in point t's tile iff each of its coordinates is in the tile's range on its axis. -/
theorem mem_tile (t : Fin cfg1.N) (i : S16384x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v218).slice (win1_2.rect t)).set ↔ _
  rw [View.set_slice_whole, Rect.mem_set_unit]
  exact Iff.rfl

/-- Every entry of the output array is written back by some point: row p by the point p / 1024, whose tile is rows
    1024 (p / 1024) … 1024 (p / 1024) + 1023 and all 512 columns. -/
theorem covered (i : S16384x512.Idx) :
    ∃ t : Fin cfg1.N, (cfg1.win 2).flush t = true ∧ i ∈ ((cfg1.win 2).blk t).view.set := by
  have hi0 : (i 0).val < 16384 := (i 0).isLt
  have hi1 : (i 1).val < 512 := (i 1).isLt
  have hN : cfg1.N = 16 := N_1
  have ht : (i 0).val / 1024 < cfg1.N := by rw [hN]; omega
  obtain ⟨_, _, _, _, e20, e21⟩ := tile_rows ⟨(i 0).val / 1024, ht⟩
  refine ⟨⟨(i 0).val / 1024, ht⟩, flush1_2 _, ?_⟩
  rw [mem_tile]
  intro a
  match a with
  | ⟨0, _⟩ =>
    show win1_2.index ⟨(i 0).val / 1024, ht⟩ (0 : Fin 2) * 1024 ≤ (i 0).val ∧ (i 0).val < win1_2.index ⟨(i 0).val / 1024, ht⟩ (0 : Fin 2) * 1024 + 1024
    rw [e20]; show (i 0).val / 1024 * 1024 ≤ (i 0).val ∧ (i 0).val < (i 0).val / 1024 * 1024 + 1024; omega
  | ⟨1, _⟩ =>
    show win1_2.index ⟨(i 0).val / 1024, ht⟩ (1 : Fin 2) * 512 ≤ (i 1).val ∧ (i 1).val < win1_2.index ⟨(i 0).val / 1024, ht⟩ (1 : Fin 2) * 512 + 512
    rw [e21]; omega

/-- THE OUTPUT ARRAY after the call is the product of the leaf probabilities and the leaf values as the call finds
    them, whatever they are. -/
theorem arr_eq (c : Dev nD) :
    (dat1 (F := Ideal) V c).arrAt 2 cfg1.N = mix (V c main_v217) (V c main_v4) :=
  (dat1 (F := Ideal) V c).arrAt_eq_of_cover 2 (mix (V c main_v217) (V c main_v4)) (fun t _ => written_back V c t) covered

/-- At an entry, with the two arrays named: for whatever a and v the call finds the probabilities and the values to be. -/
theorem arr_entry_of (c : Dev nD) (a : FVec Ideal S16384x1024 .f32) (v : FVec Ideal S1024x512 .bf16)
    (ha : V c main_v217 = a) (hv : V c main_v4 = v) (p : Fin 16384) (q : Fin 512) :
    (dat1 (F := Ideal) V c).arrAt 2 cfg1.N (ix2 p q) = ∑ k : Fin 1024, a (ix2 p k) * v (ix2 k q) := by
  subst ha hv
  exact (congrFun (arr_eq V c) (ix2 p q)).trans (mix_apply (V c main_v217) (V c main_v4) p q)

/-- At an entry: entry (p, q) of the output is the sum over the 1024 leaves k of probability (p, k) times
    value (k, q). (The product is the extended reals'; its instance is named because the arrays' element types are
    those of their buffers, which reduce to the extended reals only by computation.) -/
theorem arr_entry (c : Dev nD) (p : Fin 16384) (q : Fin 512) :
    ((dat1 (F := Ideal) V c).arrAt 2 cfg1.N (ix2 p q) : EReal)
      = ∑ k : Fin 1024, @HMul.hMul EReal EReal EReal _ (V c main_v217 (ix2 p k)) (V c main_v4 (ix2 k q)) :=
  arr_entry_of V c _ _ rfl rfl p q

end Cert.KernelIdeal.Leaves

end
-- ==== Proof.LeavesAgree.lean ====
/-
  The second product of the kernel's program is the reference's last operation.

  The kernel's program ends with the leaf probabilities, a [16384, 1024] array, multiplied tile by tile by the
  [1024, 512] leaf values rounded to bf16; the reference ends with the host's product of its leaf probabilities and
  the leaf values themselves. Over the extended reals rounding to bf16 is the identity and both products are plain
  sums, so, once the two programs' leaf probabilities are the same array a, the two results agree entry by entry:
  entry (p, q) of either is the sum over the 1024 leaves k of a (p, k) · v (k, q), v the leaf argument.

  On the kernel's side the output array after the second product is that sum of the arrays the product finds
  (Leaves.arr_entry_of); the bf16 leaf values it finds are those the first product found, no operation in between
  writing them (Ends.W7_leaves), and those are the leaf argument's entries (Head.W5_leaves_entry). On the reference's
  side the host product read at an entry is the same sum (Ideal.dotGeneral_rows_cols).
-/
import proofs.«135782_j18683107738106_1_alg».proof.Proof.Gen.KernelIdeal.Frame
import proofs.«135782_j18683107738106_1_alg».proof.Proof.Gen.ReferenceIdeal
import proofs.«135782_j18683107738106_1_alg».proof.Proof.LeafBlocks
import proofs.«135782_j18683107738106_1_alg».proof.Proof.PaddedOperands
import proofs.«135782_j18683107738106_1_alg».proof.Proof.GlueEnds
import proofs.«135782_j18683107738106_1_alg».proof.Proof.LibDotGeneralEntry
import Idealize.ShloMosaic.Lib.ValueIdx

noncomputable section

open scoped BigOperators

namespace Cert.Agree

open Idealize.ShloMosaic Idealize.ShloMosaic.TcCoe Idealize.SL.Sem
open Idealize.ShloMosaic.ValueIdx

/-- If the second product finds the leaf probabilities a, and the leaf argument is v, its output array is the host's
    product of a and v. -/
theorem leaves_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (a : FVec Ideal Cert.ReferenceIdeal.S16384x1024 .f32) (v : FVec Ideal Cert.ReferenceIdeal.S1024x512 .f32)
    (ha : Cert.KernelIdeal.Gen.W7 (F := Ideal) m ρ c (Proc.devRef .tc Cert.KernelIdeal.main_v217) = a)
    (hv : m ((c : Thread Cert.KernelIdeal.nD Cert.KernelIdeal.τ).loc Cert.KernelIdeal.main_arg3) = v) :
    Cert.KernelIdeal.Gen.W8 (F := Ideal) m ρ c (Proc.devRef .tc Cert.KernelIdeal.main_v218)
      = Host.dotGeneral Cert.ReferenceIdeal.dot_S16384x1024_S1024x512_S16384x512_1_0_0_1_n_n none a v := by
  funext i
  obtain ⟨p, q, rfl⟩ : ∃ (p : Fin 16384) (q : Fin 512), i = ix2 p q := ⟨i 0, i 1, eq_ix2 i⟩
  -- the bf16 leaf values as the second product finds them, named
  obtain ⟨vb, hvb⟩ : ∃ vb : FVec Ideal Cert.KernelIdeal.S1024x512 .bf16,
      Cert.KernelIdeal.Gen.W7 (F := Ideal) m ρ c (Proc.devRef .tc Cert.KernelIdeal.main_v4) = vb := ⟨_, rfl⟩
  -- the kernel's side: the output array of the second product, at the entry, is the sum over the leaves
  refine (congrFun (Cert.KernelIdeal.Gen.W8_arr (F := Ideal) m ρ c 2) (ix2 p q)).trans ?_
  refine (Cert.KernelIdeal.Leaves.arr_entry_of (Cert.KernelIdeal.Gen.V7 (F := Ideal) m ρ) c a vb ha hvb p q).trans ?_
  -- the reference's side: the host product at the entry is the sum over the leaves
  refine ((Ideal.dotGeneral_rows_cols Cert.ReferenceIdeal.dot_S16384x1024_S1024x512_S16384x512_1_0_0_1_n_n
    rfl rfl rfl rfl rfl rfl none .single a v p q).trans ?_).symm
  refine Finset.sum_congr rfl fun k _ => ?_
  -- term by term: the bf16 leaf value is the leaf argument's entry
  have e : vb (ix2 k q) = v (ix2 k q) :=
    ((congrFun hvb.symm (ix2 k q)).trans ((congrFun (Cert.Ends.W7_leaves (F := Ideal) m ρ c) (ix2 k q)).trans
      (Cert.KernelIdeal.Head.W5_leaves_entry m ρ c k q))).trans (congrFun hv (ix2 k q))
  rw [e]

end Cert.Agree

end
-- ==== Proof.Results.lean ====
/-
  The two programs' results are equal.

  The kernel's first result is its second pallas_call's output array, the leaf probabilities times the leaf values, row
  tile by row tile; the reference's is one host product of the same two factors. The leaf probabilities are what the
  ten levels of the tree's recursion leave, and they agree in the two programs once the splitter probabilities P do
  (the walk); P agrees because the kernel's padded column is sliced off again and its fused logistic is the
  reference's 1 / (1 + exp(−z)) on every extended real. The second result, the regulariser, is left by the same walk and
  is not touched by either program afterwards. Nothing here needs the inputs to be finite: only sums and products are
  regrouped, never distributed.
-/
import proofs.«135782_j18683107738106_1_alg».proof.Proof.Gen.KernelIdeal.Frame
import proofs.«135782_j18683107738106_1_alg».proof.Proof.Gen.ReferenceIdeal.Run
import proofs.«135782_j18683107738106_1_alg».proof.Proof.GlueEnds
import proofs.«135782_j18683107738106_1_alg».proof.Proof.TreeWalk
import proofs.«135782_j18683107738106_1_alg».proof.Proof.SplitterAgree
import proofs.«135782_j18683107738106_1_alg».proof.Proof.LeavesAgree

noncomputable section

namespace Cert.Agree

open Idealize.ShloMosaic Idealize.ShloMosaic.TcCoe Idealize.ShloMosaic.StableHlo Idealize.SL.Sem

local notation "opsK" => (Cert.KernelIdeal.Gen.hostOps1 (F := Ideal))
local notation "opsR" => (Cert.ReferenceIdeal.Value.ops (F := Ideal))

/-- From launch memories that agree on the four arguments: what the reference's operations leave in its two result
    buffers is what the kernel's last segment boundary holds in its two. -/
theorem results_agree
    (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (V0 : Valuation Cert.ReferenceIdeal.τ Cert.ReferenceIdeal.sig (Elt Ideal))
    (h0 : V0 (Proc.devRef .tc Cert.ReferenceIdeal.main_arg0) = m ((c : Thread Cert.KernelIdeal.nD Cert.KernelIdeal.τ).loc Cert.KernelIdeal.main_arg0))
    (h1 : V0 (Proc.devRef .tc Cert.ReferenceIdeal.main_arg1) = m ((c : Thread Cert.KernelIdeal.nD Cert.KernelIdeal.τ).loc Cert.KernelIdeal.main_arg1))
    (h2 : V0 (Proc.devRef .tc Cert.ReferenceIdeal.main_arg2) = m ((c : Thread Cert.KernelIdeal.nD Cert.KernelIdeal.τ).loc Cert.KernelIdeal.main_arg2))
    (h3 : V0 (Proc.devRef .tc Cert.ReferenceIdeal.main_arg3) = m ((c : Thread Cert.KernelIdeal.nD Cert.KernelIdeal.τ).loc Cert.KernelIdeal.main_arg3)) :
    after opsR V0 (Proc.devRef .tc Cert.ReferenceIdeal.main_v221)
        = Cert.KernelIdeal.Gen.W8 (F := Ideal) m ρ c (Proc.devRef .tc Cert.KernelIdeal.main_v218)
    ∧ after opsR V0 (Proc.devRef .tc Cert.ReferenceIdeal.main_v212)
        = Cert.KernelIdeal.Gen.W8 (F := Ideal) m ρ c (Proc.devRef .tc Cert.KernelIdeal.main_v209) := by
  -- the splitter probabilities agree, so the walk through the levels does
  have hP := splitter_agree m ρ c V0 h0 h1 h2
  obtain ⟨hpr, hrg⟩ := Cert.Tree.walk (after (List.take 1 opsK) (Cert.KernelIdeal.Gen.W6 m ρ c)) (after (List.take 12 opsR) V0) hP
  rw [← Cert.Ends.after_take_drop opsK 1 (Cert.KernelIdeal.Gen.W6 m ρ c), ← Cert.Ends.after_take_drop opsR 12 V0] at hpr hrg
  constructor
  · -- the reference's last operation: the product of the leaf probabilities with the leaf values
    have e : after opsR V0 = after (List.drop 295 opsR) (after (List.take 295 opsR) V0) := Cert.Ends.after_take_drop opsR 295 V0
    have a1 := Cert.Ends.ref_last_out (after (List.take 295 opsR) V0)
    have a2 := Cert.Ends.ref_last_probs (after (List.take 295 opsR) V0)
    have a3 := Cert.Ends.ref_last_leaves (after (List.take 295 opsR) V0)
    rw [← e] at a1 a2 a3
    rw [a1, ← a2, ← a3, Cert.Ends.ref_leaves_kept V0, ← hpr]
    exact (leaves_agree m ρ c _ _ rfl h3.symm).symm
  · -- the regulariser: left by the walk, kept by the second pallas_call
    rw [← hrg]
    exact (Cert.KernelIdeal.Gen.W8_of_ne m ρ c Cert.KernelIdeal.main_v209 (by decide)).symm

end Cert.Agree

end
-- ==== Proof.lean ====
/-
  The proof of `Cert.Claim`: a soft decision tree of depth 10 — sigmoid(x·W + b) for the 1023 internal nodes, ten
  levels of path-probability splitting with an entropy-like regulariser, and the leaf mixture probs·value — computed by
  two pallas_calls around the host recursion, against the same formula on the host.

  The three frames: the kernel's two (as printed, and idealized) are the generated several-region frame
  certificates; the reference has no kernel, and its frame is its generated run with the results dropped.
  `preserves`: the ideal pass rewrote nothing, the conjunct is `True`.
  `algebraic`: the idealized kernel's run with its results named (Proof/KernelRun.lean), the reference's run as the
  fold of its operations over the launch memory, and the equality of the two pairs of results from memories that agree
  on the arguments (Proof/Results.lean, over the walk through the tree's levels and the two pallas_calls' arrays read
  entry by entry).
-/
import proofs.«135782_j18683107738106_1_alg».proof.Defs
import proofs.«135782_j18683107738106_1_alg».proof.Proof.Gen.Kernel
import proofs.«135782_j18683107738106_1_alg».proof.Proof.Gen.Kernel.Skeleton
import proofs.«135782_j18683107738106_1_alg».proof.Proof.Gen.Kernel.Launch
import proofs.«135782_j18683107738106_1_alg».proof.Proof.Gen.Kernel.Points
import proofs.«135782_j18683107738106_1_alg».proof.Proof.Gen.Kernel.Frame
import proofs.«135782_j18683107738106_1_alg».proof.Proof.Gen.KernelIdeal
import proofs.«135782_j18683107738106_1_alg».proof.Proof.Gen.KernelIdeal.Skeleton
import proofs.«135782_j18683107738106_1_alg».proof.Proof.Gen.KernelIdeal.Launch
import proofs.«135782_j18683107738106_1_alg».proof.Proof.Gen.KernelIdeal.Points
import proofs.«135782_j18683107738106_1_alg».proof.Proof.Gen.KernelIdeal.Frame
import proofs.«135782_j18683107738106_1_alg».proof.Proof.Gen.ReferenceIdeal
import proofs.«135782_j18683107738106_1_alg».proof.Proof.Gen.ReferenceIdeal.Run
import proofs.«135782_j18683107738106_1_alg».proof.Proof.Gen.Pre_finite_inputs
import proofs.«135782_j18683107738106_1_alg».proof.Proof.KernelRun
import proofs.«135782_j18683107738106_1_alg».proof.Proof.Results
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs run, from memories that agree on the arguments, to the same two results: the kernel's are
    named by its run, the reference's are the fold of its operations, and the two pairs are equal. -/
theorem algebraic : Cert.algebraic_KernelIdeal_ReferenceIdeal := by
  intro m ρ m' ρ' _ hagree
  refine ⟨fun c => Cert.KernelIdeal.Gen.W8 (F := Ideal) m ρ c (Proc.devRef .tc Cert.KernelIdeal.main_v218),
    fun c => Cert.KernelIdeal.Gen.W8 (F := Ideal) m ρ c (Proc.devRef .tc Cert.KernelIdeal.main_v209),
    Cert.KernelIdeal.Whole.run_results m ρ, ?_⟩
  refine (θ_run Cert.ReferenceIdeal.defs _ _).mono (fun r h c => ?_)
    (StableHlo.run_seq Cert.ReferenceIdeal.Value.scopedRefs_eq Cert.ReferenceIdeal.Value.scopedSems_eq Cert.ReferenceIdeal.defs
      Cert.ReferenceIdeal.main (fun _ => Cert.ReferenceIdeal.Value.ops) Cert.ReferenceIdeal.Value.main_eq
      (fun _ => Cert.ReferenceIdeal.Value.ops_sub) m' ρ')
  obtain ⟨h0, h1, h2, h3⟩ := hagree c
  obtain ⟨e1, e2⟩ := Cert.Agree.results_agree m ρ c (StableHlo.launchContents m' c) h0 h1 h2 h3
  exact ⟨(h c Cert.ReferenceIdeal.main_v221).trans e1, (h c Cert.ReferenceIdeal.main_v212).trans e2,
    (h c Cert.ReferenceIdeal.main_arg0).trans (by simp only [Cert.ReferenceIdeal.Value.after_ops]; exact Cert.ReferenceIdeal.Value.val5_main_arg0 (StableHlo.launchContents m' c)),
    (h c Cert.ReferenceIdeal.main_arg1).trans (by simp only [Cert.ReferenceIdeal.Value.after_ops]; exact Cert.ReferenceIdeal.Value.val5_main_arg1 (StableHlo.launchContents m' c)),
    (h c Cert.ReferenceIdeal.main_arg2).trans (by simp only [Cert.ReferenceIdeal.Value.after_ops]; exact Cert.ReferenceIdeal.Value.val5_main_arg2 (StableHlo.launchContents m' c)),
    (h c Cert.ReferenceIdeal.main_arg3).trans (by simp only [Cert.ReferenceIdeal.Value.after_ops]; exact Cert.ReferenceIdeal.Value.val5_main_arg3 (StableHlo.launchContents m' c))⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
